-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x64x64 : Shape := ⟨4, ![1, 64, 64, 64]⟩
abbrev S1x64x2x64x64 : Shape := ⟨5, ![1, 64, 2, 64, 64]⟩
abbrev S1x1x2x64x64 : Shape := ⟨5, ![1, 1, 2, 64, 64]⟩
abbrev S1x2x512x2x64x64 : Shape := ⟨6, ![1, 2, 512, 2, 64, 64]⟩
abbrev S_ : Shape := ⟨0, ![]⟩

class Facts : Prop where
  bcast_S_S1x64x64x64 : S_.BroadcastsInDim S1x64x64x64 (![] : Fin 0 → Fin S1x64x64x64.rank)
  reducesTo_S1x64x64x64_S_d0_1_2_3 : S1x64x64x64.ReducesTo [0, 1, 2, 3] S_
  h_S_ : 0 < S_.numel
  bcast_S_S1x64x2x64x64 : S_.BroadcastsInDim S1x64x2x64x64 (![] : Fin 0 → Fin S1x64x2x64x64.rank)
  reducesTo_S1x64x2x64x64_S_d0_1_2_3_4 : S1x64x2x64x64.ReducesTo [0, 1, 2, 3, 4] S_
  bcast_S_S1x1x2x64x64 : S_.BroadcastsInDim S1x1x2x64x64 (![] : Fin 0 → Fin S1x1x2x64x64.rank)
  reducesTo_S1x1x2x64x64_S_d0_1_2_3_4 : S1x1x2x64x64.ReducesTo [0, 1, 2, 3, 4] S_
  bcast_S_S1x2x512x2x64x64 : S_.BroadcastsInDim S1x2x512x2x64x64 (![] : Fin 0 → Fin S1x2x512x2x64x64.rank)
  reducesTo_S1x2x512x2x64x64_S_d0_1_2_3_4_5 : S1x2x512x2x64x64.ReducesTo [0, 1, 2, 3, 4, 5] S_

variable [Facts]

def fn_part1 {F : FTy → Type} [FloatOps F] (main_arg4 : FVec F S1x2x512x2x64x64 .f32) (main_v13 : IVec S_ 1) (main_v16 : IVec S1x1x2x64x64 1) : IVec S_ 1 :=
  let main_c_5 : IVec S_ 1 := constantI S_ 1 1#1
  let main_v17 : IVec S_ 1 := (fun x v => Host.reduce IntOp.andi x v reducesTo_S1x1x2x64x64_S_d0_1_2_3_4 h_S_) main_v16 main_c_5
  let main_v18 : IVec S_ 1 := andi main_v13 main_v17
  let main_v19 : FVec F S1x2x512x2x64x64 .f32 := Host.absf main_arg4
  let main_cst_6 : FVec F S_ .f32 := constant S_ .f32 0x7F800000#32
  let main_v20 : FVec F S1x2x512x2x64x64 .f32 := broadcastInDim S1x2x512x2x64x64 ![] bcast_S_S1x2x512x2x64x64 main_cst_6
  let main_v21 : IVec S1x2x512x2x64x64 1 := cmpf .olt main_v19 main_v20
  let main_c_7 : IVec S_ 1 := constantI S_ 1 1#1
  let main_v22 : IVec S_ 1 := (fun x v => Host.reduce IntOp.andi x v reducesTo_S1x2x512x2x64x64_S_d0_1_2_3_4_5 h_S_) main_v21 main_c_7
  let main_v23 : IVec S_ 1 := andi main_v18 main_v22
  main_v23

def fn {F : FTy → Type} [FloatOps F] (main_arg0 : FVec F S1x64x64x64 .f32) (main_arg1 : FVec F S1x64x64x64 .f32) (main_arg2 : FVec F S1x64x2x64x64 .f32) (main_arg3 : FVec F S1x1x2x64x64 .f32) (main_arg4 : FVec F S1x2x512x2x64x64 .f32) : IVec S_ 1 :=
  let main_v0 : FVec F S1x64x64x64 .f32 := Host.absf main_arg0
  let main_cst : FVec F S_ .f32 := constant S_ .f32 0x7F800000#32
  let main_v1 : FVec F S1x64x64x64 .f32 := broadcastInDim S1x64x64x64 ![] bcast_S_S1x64x64x64 main_cst
  let main_v2 : IVec S1x64x64x64 1 := cmpf .olt main_v0 main_v1
  let main_c : IVec S_ 1 := constantI S_ 1 1#1
  let main_v3 : IVec S_ 1 := (fun x v => Host.reduce IntOp.andi x v reducesTo_S1x64x64x64_S_d0_1_2_3 h_S_) main_v2 main_c
  let main_v4 : FVec F S1x64x64x64 .f32 := Host.absf main_arg1
  let main_cst_0 : FVec F S_ .f32 := constant S_ .f32 0x7F800000#32
  let main_v5 : FVec F S1x64x64x64 .f32 := broadcastInDim S1x64x64x64 ![] bcast_S_S1x64x64x64 main_cst_0
  let main_v6 : IVec S1x64x64x64 1 := cmpf .olt main_v4 main_v5
  let main_c_1 : IVec S_ 1 := constantI S_ 1 1#1
  let main_v7 : IVec S_ 1 := (fun x v => Host.reduce IntOp.andi x v reducesTo_S1x64x64x64_S_d0_1_2_3 h_S_) main_v6 main_c_1
  let main_v8 : IVec S_ 1 := andi main_v3 main_v7
  let main_v9 : FVec F S1x64x2x64x64 .f32 := Host.absf main_arg2
  let main_cst_2 : FVec F S_ .f32 := constant S_ .f32 0x7F800000#32
  let main_v10 : FVec F S1x64x2x64x64 .f32 := broadcastInDim S1x64x2x64x64 ![] bcast_S_S1x64x2x64x64 main_cst_2
  let main_v11 : IVec S1x64x2x64x64 1 := cmpf .olt main_v9 main_v10
  let main_c_3 : IVec S_ 1 := constantI S_ 1 1#1
  let main_v12 : IVec S_ 1 := (fun x v => Host.reduce IntOp.andi x v reducesTo_S1x64x2x64x64_S_d0_1_2_3_4 h_S_) main_v11 main_c_3
  let main_v13 : IVec S_ 1 := andi main_v8 main_v12
  let main_v14 : FVec F S1x1x2x64x64 .f32 := Host.absf main_arg3
  let main_cst_4 : FVec F S_ .f32 := constant S_ .f32 0x7F800000#32
  let main_v15 : FVec F S1x1x2x64x64 .f32 := broadcastInDim S1x1x2x64x64 ![] bcast_S_S1x1x2x64x64 main_cst_4
  let main_v16 : IVec S1x1x2x64x64 1 := cmpf .olt main_v14 main_v15
  fn_part1 (F := F) main_arg4 main_v13 main_v16
-- ==== Kernel.lean ====
abbrev S1x64x64x64 : Shape := ⟨4, ![1, 64, 64, 64]⟩
abbrev S1x64x2x64x64 : Shape := ⟨5, ![1, 64, 2, 64, 64]⟩
abbrev S1x1x2x64x64 : Shape := ⟨5, ![1, 1, 2, 64, 64]⟩
abbrev S1x2x512x2x64x64 : Shape := ⟨6, ![1, 2, 512, 2, 64, 64]⟩
abbrev S64x4096 : Shape := ⟨2, ![64, 4096]⟩
abbrev S64x8192 : Shape := ⟨2, ![64, 8192]⟩
abbrev S1x8192 : Shape := ⟨2, ![1, 8192]⟩
abbrev S1024x8192 : Shape := ⟨2, ![1024, 8192]⟩
abbrev S4096x64 : Shape := ⟨2, ![4096, 64]⟩
abbrev S8192x64 : Shape := ⟨2, ![8192, 64]⟩
abbrev S_ : Shape := ⟨0, ![]⟩
abbrev S4096x128 : Shape := ⟨2, ![4096, 128]⟩
abbrev S8192x128 : Shape := ⟨2, ![8192, 128]⟩
abbrev S4096 : Shape := ⟨1, ![4096]⟩
abbrev S4096x1 : Shape := ⟨2, ![4096, 1]⟩
abbrev S1024x4096 : Shape := ⟨2, ![1024, 4096]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S2x512x64x64 : Shape := ⟨4, ![2, 512, 64, 64]⟩
abbrev S1x2x512x64x64 : Shape := ⟨5, ![1, 2, 512, 64, 64]⟩

abbrev nBuf : Space → Nat
  | .hbm => 32
  | .vmem => 15
  | .smem => 0
  | _ => 0

abbrev bufTy : (tb : Table) → Fin (tcTables nBuf tb) → BufTy
  | .hbm, ⟨0, _⟩ => ⟨S1x64x64x64, .f32⟩
  | .hbm, ⟨1, _⟩ => ⟨S1x64x64x64, .f32⟩
  | .hbm, ⟨2, _⟩ => ⟨S1x64x2x64x64, .f32⟩
  | .hbm, ⟨3, _⟩ => ⟨S1x1x2x64x64, .f32⟩
  | .hbm, ⟨4, _⟩ => ⟨S1x2x512x2x64x64, .f32⟩
  | .hbm, ⟨5, _⟩ => ⟨S64x4096, .f32⟩
  | .hbm, ⟨6, _⟩ => ⟨S64x4096, .f32⟩
  | .hbm, ⟨7, _⟩ => ⟨S64x8192, .f32⟩
  | .hbm, ⟨8, _⟩ => ⟨S1x8192, .f32⟩
  | .hbm, ⟨9, _⟩ => ⟨S1024x8192, .f32⟩
  | .hbm, ⟨10, _⟩ => ⟨S4096x64, .f32⟩
  | .hbm, ⟨11, _⟩ => ⟨S4096x64, .f32⟩
  | .hbm, ⟨12, _⟩ => ⟨S8192x64, .f32⟩
  | .hbm, ⟨13, _⟩ => ⟨S_, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x128, .f32⟩
  | .hbm, ⟨19, _⟩ => ⟨S4096x128, .bf16⟩
  | .hbm, ⟨20, _⟩ => ⟨S8192x64, .f32⟩
  | .hbm, ⟨21, _⟩ => ⟨S8192x128, .f32⟩
  | .hbm, ⟨22, _⟩ => ⟨S8192x128, .bf16⟩
  | .hbm, ⟨23, _⟩ => ⟨S4096x64, .f32⟩
  | .hbm, ⟨24, _⟩ => ⟨S4096x64, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S1024x8192, .bf16⟩
  | .hbm, ⟨29, _⟩ => ⟨S1024x4096, .f32⟩
  | .hbm, ⟨30, _⟩ => ⟨S2x512x64x64, .f32⟩
  | .hbm, ⟨31, _⟩ => ⟨S1x2x512x64x64, .f32⟩
  | .local _ .vmem, ⟨0, _⟩ => ⟨S1024x128, .bf16⟩
  | .local _ .vmem, ⟨1, _⟩ => ⟨S1024x128, .bf16⟩
  | .local _ .vmem, ⟨2, _⟩ => ⟨S1024x1, .f32⟩
  | .local _ .vmem, ⟨3, _⟩ => ⟨S1024x1, .f32⟩
  | .local _ .vmem, ⟨4, _⟩ => ⟨S1024x128, .bf16⟩
  | .local _ .vmem, ⟨5, _⟩ => ⟨S1024x128, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1, .f32⟩
  | .local _ .vmem, ⟨13, _⟩ => ⟨S1024x1, .f32⟩
  | .local _ .vmem, ⟨14, _⟩ => ⟨S1024x1024, .f32⟩
  | _, _ => ⟨S1x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_26 : BitVec 32 := 0#32
  let v52 : BitVec 1 := Scalar.cmpi .ne v51 c0_i32_26
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1x64x64x64_S64x4096 : S1x64x64x64.ShapeCasts S64x4096
  shapeCasts_S1x64x2x64x64_S64x8192 : S1x64x2x64x64.ShapeCasts S64x8192
  shapeCasts_S1x1x2x64x64_S1x8192 : S1x1x2x64x64.ShapeCasts S1x8192
  shapeCasts_S1x2x512x2x64x64_S1024x8192 : S1x2x512x2x64x64.ShapeCasts S1024x8192
  transposes_S64x4096_S4096x64_1_0 : S64x4096.Transposes [1, 0] S4096x64
  transposes_S64x8192_S8192x64_1_0 : S64x8192.Transposes [1, 0] S8192x64
  bcast_S_S4096x64 : S_.BroadcastsInDim S4096x64 (![] : Fin 0 → Fin S4096x64.rank)
  concatenates_S4096x64_S4096x64_S4096x128_d1 : Shape.Concatenates [S4096x64, S4096x64] S4096x128 1
  bitsLt_bf16_f32 : FTy.bits .bf16 < FTy.bits .f32
  concatenates_S8192x64_S8192x64_S8192x128_d1 : Shape.Concatenates [S8192x64, S8192x64] S8192x128 1
  reducesTo_S4096x64_S4096_d1 : S4096x64.ReducesTo [1] S4096
  h_S_ : 0 < S_.numel
  bcast_S4096_S4096x1_0 : S4096.BroadcastsInDim S4096x1 (![0] : Fin 1 → Fin S4096x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  shapeCasts_S1024x4096_S2x512x64x64 : S1024x4096.ShapeCasts S2x512x64x64
  bcast_S2x512x64x64_S1x2x512x64x64_1_2_3_4 : S2x512x64x64.BroadcastsInDim S1x2x512x64x64 (![1, 2, 3, 4] : Fin 4 → Fin S1x2x512x64x64.rank)
  dot_S1024x128_S1024x128_S1024x1024_1_1_0_0_n_n_wf : DotDims.WF S1024x128 S1024x128 S1024x1024 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .bf16 = 32 ∨ (Rect.block (s := S4096x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x8192.size a
  hwx0_4 : ∀ i : grid0.Coords, EltTy.bits .bf16 = 32 ∨ (Rect.block (s := S1024x8192) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x4096.size a
  hwx0_5 : ∀ i : grid0.Coords, EltTy.bits .f32 = 32 ∨ (Rect.block (s := S1024x4096) S1024x1024.size (cc0_transform_5 i) (hinb0_5 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v13) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x64x64x64 : Shape := ⟨4, ![1, 64, 64, 64]⟩
abbrev S1x64x2x64x64 : Shape := ⟨5, ![1, 64, 2, 64, 64]⟩
abbrev S1x1x2x64x64 : Shape := ⟨5, ![1, 1, 2, 64, 64]⟩
abbrev S1x2x512x2x64x64 : Shape := ⟨6, ![1, 2, 512, 2, 64, 64]⟩
abbrev S1x64x8192 : Shape := ⟨3, ![1, 64, 8192]⟩
abbrev S1x8192 : Shape := ⟨2, ![1, 8192]⟩
abbrev S1x64x4096 : Shape := ⟨3, ![1, 64, 4096]⟩
abbrev S1x1024x8192 : Shape := ⟨3, ![1, 1024, 8192]⟩
abbrev S1x8192x4096 : Shape := ⟨3, ![1, 8192, 4096]⟩
abbrev S_ : Shape := ⟨0, ![]⟩
abbrev S1x4096 : Shape := ⟨2, ![1, 4096]⟩
abbrev S1x1x4096 : Shape := ⟨3, ![1, 1, 4096]⟩
abbrev S1x8192x1 : Shape := ⟨3, ![1, 8192, 1]⟩
abbrev S1x1024x4096 : Shape := ⟨3, ![1, 1024, 4096]⟩
abbrev S1x2x512x64x64 : Shape := ⟨5, ![1, 2, 512, 64, 64]⟩

abbrev nBuf : Space → Nat
  | .hbm => 47
  | .vmem => 0
  | .smem => 0
  | _ => 0

abbrev bufTy : (tb : Table) → Fin (tcTables nBuf tb) → BufTy
  | .hbm, ⟨0, _⟩ => ⟨S1x64x64x64, .f32⟩
  | .hbm, ⟨1, _⟩ => ⟨S1x64x64x64, .f32⟩
  | .hbm, ⟨2, _⟩ => ⟨S1x64x2x64x64, .f32⟩
  | .hbm, ⟨3, _⟩ => ⟨S1x1x2x64x64, .f32⟩
  | .hbm, ⟨4, _⟩ => ⟨S1x2x512x2x64x64, .f32⟩
  | .hbm, ⟨5, _⟩ => ⟨S1x64x8192, .f32⟩
  | .hbm, ⟨6, _⟩ => ⟨S1x8192, .f32⟩
  | .hbm, ⟨7, _⟩ => ⟨S1x64x4096, .f32⟩
  | .hbm, ⟨8, _⟩ => ⟨S1x64x4096, .f32⟩
  | .hbm, ⟨9, _⟩ => ⟨S1x1024x8192, .f32⟩
  | .hbm, ⟨10, _⟩ => ⟨S1x64x8192, .f32⟩
  | .hbm, ⟨11, _⟩ => ⟨S1x8192x4096, .f32⟩
  | .hbm, ⟨12, _⟩ => ⟨S1x64x4096, .f32⟩
  | .hbm, ⟨13, _⟩ => ⟨S1x8192x4096, .f32⟩
  | .hbm, ⟨14, _⟩ => ⟨S_, .f32⟩
  | .hbm, ⟨15, _⟩ => ⟨S1x8192x4096, .f32⟩
  | .hbm, ⟨16, _⟩ => ⟨S1x8192x4096, .f32⟩
  | .hbm, ⟨17, _⟩ => ⟨S1x64x4096, .f32⟩
  | .hbm, ⟨18, _⟩ => ⟨S1x64x4096, .f32⟩
  | .hbm, ⟨19, _⟩ => ⟨S_, .f32⟩
  | .hbm, ⟨20, _⟩ => ⟨S1x4096, .f32⟩
  | .hbm, ⟨21, _⟩ => ⟨S1x1x4096, .f32⟩
  | .hbm, ⟨22, _⟩ => ⟨S1x8192x4096, .f32⟩
  | .hbm, ⟨23, _⟩ => ⟨S1x8192x4096, .f32⟩
  | .hbm, ⟨24, _⟩ => ⟨S1x8192x4096, .f32⟩
  | .hbm, ⟨25, _⟩ => ⟨S1x8192x1, .f32⟩
  | .hbm, ⟨26, _⟩ => ⟨S1x8192x4096, .f32⟩
  | .hbm, ⟨27, _⟩ => ⟨S1x8192x4096, .f32⟩
  | .hbm, ⟨28, _⟩ => ⟨S_, .f32⟩
  | .hbm, ⟨29, _⟩ => ⟨S1x8192x4096, .f32⟩
  | .hbm, ⟨30, _⟩ => ⟨S1x8192x4096, .f32⟩
  | .hbm, ⟨31, _⟩ => ⟨S_, .f32⟩
  | .hbm, ⟨32, _⟩ => ⟨S1x4096, .f32⟩
  | .hbm, ⟨33, _⟩ => ⟨S_, .f32⟩
  | .hbm, ⟨34, _⟩ => ⟨S1x4096, .f32⟩
  | .hbm, ⟨35, _⟩ => ⟨S1x4096, .f32⟩
  | .hbm, ⟨36, _⟩ => ⟨S1x1x4096, .f32⟩
  | .hbm, ⟨37, _⟩ => ⟨S1x8192x4096, .f32⟩
  | .hbm, ⟨38, _⟩ => ⟨S1x8192x4096, .f32⟩
  | .hbm, ⟨39, _⟩ => ⟨S1x8192x4096, .f32⟩
  | .hbm, ⟨40, _⟩ => ⟨S_, .f32⟩
  | .hbm, ⟨41, _⟩ => ⟨S1x4096, .f32⟩
  | .hbm, ⟨42, _⟩ => ⟨S1x1x4096, .f32⟩
  | .hbm, ⟨43, _⟩ => ⟨S1x8192x4096, .f32⟩
  | .hbm, ⟨44, _⟩ => ⟨S1x8192x4096, .f32⟩
  | .hbm, ⟨45, _⟩ => ⟨S1x1024x4096, .f32⟩
  | .hbm, ⟨46, _⟩ => ⟨S1x2x512x64x64, .f32⟩
  | _, _ => ⟨S1x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  shapeCasts_S1x64x2x64x64_S1x64x8192 : S1x64x2x64x64.ShapeCasts S1x64x8192
  shapeCasts_S1x1x2x64x64_S1x8192 : S1x1x2x64x64.ShapeCasts S1x8192
  shapeCasts_S1x64x64x64_S1x64x4096 : S1x64x64x64.ShapeCasts S1x64x4096
  shapeCasts_S1x2x512x2x64x64_S1x1024x8192 : S1x2x512x2x64x64.ShapeCasts S1x1024x8192
  bcast_S_S1x8192x4096 : S_.BroadcastsInDim S1x8192x4096 (![] : Fin 0 → Fin S1x8192x4096.rank)
  reducesTo_S1x64x4096_S1x4096_d1 : S1x64x4096.ReducesTo [1] S1x4096
  h_S_ : 0 < S_.numel
  bcast_S1x4096_S1x1x4096_0_2 : S1x4096.BroadcastsInDim S1x1x4096 (![0, 2] : Fin 2 → Fin S1x1x4096.rank)
  bcast_S1x1x4096_S1x8192x4096_0_1_2 : S1x1x4096.BroadcastsInDim S1x8192x4096 (![0, 1, 2] : Fin 3 → Fin S1x8192x4096.rank)
  bcast_S1x8192_S1x8192x1_0_1 : S1x8192.BroadcastsInDim S1x8192x1 (![0, 1] : Fin 2 → Fin S1x8192x1.rank)
  bcast_S1x8192x1_S1x8192x4096_0_1_2 : S1x8192x1.BroadcastsInDim S1x8192x4096 (![0, 1, 2] : Fin 3 → Fin S1x8192x4096.rank)
  reducesTo_S1x8192x4096_S1x4096_d1 : S1x8192x4096.ReducesTo [1] S1x4096
  bcast_S_S1x4096 : S_.BroadcastsInDim S1x4096 (![] : Fin 0 → Fin S1x4096.rank)
  shapeCasts_S1x1024x4096_S1x2x512x64x64 : S1x1024x4096.ShapeCasts S1x2x512x64x64
  dot_S1x64x8192_S1x64x4096_S1x8192x4096_1_1_2_2_0_0_wf : DotDims.WF S1x64x8192 S1x64x4096 S1x8192x4096 [1] [1] [2] [2] [0] [0]
  dot_S1x1024x8192_S1x8192x4096_S1x1024x4096_2_1_1_2_0_0_wf : DotDims.WF S1x1024x8192 S1x8192x4096 S1x1024x4096 [2] [1] [1] [2] [0] [0]

variable [Facts₀]

def dot_S1x64x8192_S1x64x4096_S1x8192x4096_1_1_2_2_0_0 : DotDims S1x64x8192 S1x64x4096 S1x8192x4096 where
  lhsContracting := [1]
  rhsContracting := [1]
  lhsNonContracting := [2]
  rhsNonContracting := [2]
  lhsBatch := [0]
  rhsBatch := [0]
  wf := dot_S1x64x8192_S1x64x4096_S1x8192x4096_1_1_2_2_0_0_wf
def dot_S1x1024x8192_S1x8192x4096_S1x1024x4096_2_1_1_2_0_0 : DotDims S1x1024x8192 S1x8192x4096 S1x1024x4096 where
  lhsContracting := [2]
  rhsContracting := [1]
  lhsNonContracting := [1]
  rhsNonContracting := [2]
  lhsBatch := [0]
  rhsBatch := [0]
  wf := dot_S1x1024x8192_S1x8192x4096_S1x1024x4096_2_1_1_2_0_0_wf

class Facts : Prop extends Facts₀ where

variable [Facts]
-- ==== Proof.KLayout.lean ====
/-
  The layout, reduction and matrix-product operations of the kernel body, read at explicit coordinates.

  A column [1024,1] or a row [1,1024] broadcast to the square block repeats the entry of the same row (column); a
  length-1024 vector recast as a column keeps its entries; transposing a column gives the row with the same entries;
  a reduction along the second axis at row r runs over the entries (r, k); and a matrix product that contracts the
  second axis of both factors has at (a, b) the sum over k of left (a, k) times right (b, k).
-/
import proofs.«121614_j13091060318871_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.ValueIdx

namespace Cert.KSide

open Cert.KernelIdeal Cert.KernelIdeal.Gen

/-- A column broadcast along the second axis: entry (r, j) is the column's entry r. -/
theorem bcastCol_apply {α : Type} (x : S1024x1.Idx → α) (r j : Fin 1024) :
    broadcastTo S1024x1024 x broadcasts_S1024x1_S1024x1024 (ix2 r j) = x (ix2 r 0) :=
  broadcastTo_apply x _ (ix2 r j) (ix2 r 0) (fun a => by
    match a with
    | ⟨0, _⟩ => exact (if_neg (show (1024 : ℕ) ≠ 1 by decide)).symm
    | ⟨1, _⟩ => exact (if_pos rfl).symm)

/-- A row broadcast along the first axis: entry (r, j) is the row's entry j. -/
theorem bcastRow_apply {α : Type} (x : S1x1024.Idx → α) (r j : Fin 1024) :
    broadcastTo S1024x1024 x broadcasts_S1x1024_S1024x1024 (ix2 r j) = x (ix2 0 j) :=
  broadcastTo_apply x _ (ix2 r j) (ix2 0 j) (fun a => by
    match a with
    | ⟨0, _⟩ => exact (if_pos rfl).symm
    | ⟨1, _⟩ => exact (if_neg (show (1024 : ℕ) ≠ 1 by decide)).symm)

/-- A vector recast as a column keeps its entries. -/
theorem colOfVec_apply {α : Type} (x : S1024.Idx → α) (r : Fin 1024) :
    shapeCast S1024x1 x shapeCasts_S1024_S1024x1 (ix2 r 0) = x (ix1 r) :=
  shapeCast_apply x _ (ix2 r 0) (ix1 r) (by
    rw [Shape.rowMajor_val_one, Shape.rowMajor_val_two]
    show r.val = r.val * 1 + 0
    omega)

/-- Transposing a column gives the row with the same entries. -/
theorem rowOfCol_apply {α : Type} (x : S1024x1.Idx → α) (r : Fin 1024) :
    transpose S1x1024 [1, 0] x transposes_S1024x1_p1_0_S1x1024 (ix2 0 r) = x (ix2 r 0) :=
  transpose_apply [1, 0] x _ (ix2 0 r) (ix2 r 0) (fun b => by
    match b with
    | ⟨0, _⟩ => rfl
    | ⟨1, _⟩ => rfl)

/-- A sum along the second axis at row r is the sum of the row's entries. -/
theorem rowSum_apply (x : FVec Ideal S1024x1024 .f32) (r : Fin 1024) :
    multiReduction .add [1] S1024 x 0x00000000#32 reduces_S1024x1024_S1024 (.inl rfl) rfl (ix1 r)
      = ∑ k : Fin 1024, x (ix2 r k) := by
  refine (Ideal.multiReduction_add_single x 0x00000000#32 reduces_S1024x1024_S1024 (.inl rfl) rfl (ix1 r)).trans ?_
  refine Finset.sum_congr rfl fun k _ => congrArg x (funext fun d => Fin.ext ?_)
  match d with
  | ⟨0, _⟩ => rfl
  | ⟨1, _⟩ => rfl

/-- A maximum along the second axis at row r is the fold of max over the row's entries, from −∞. -/
theorem rowMax_apply (x : FVec Ideal S1024x1024 .f32) (r : Fin 1024) :
    multiReduction .maximumf [1] S1024 x 0xFF800000#32 reduces_S1024x1024_S1024 (.inl rfl) rfl (ix1 r)
      = (Finset.univ : Finset (Fin 1024)).fold max (Ideal.ofBits .f32 0xFF800000#32) (fun k => x (ix2 r k)) := by
  refine (Ideal.multiReduction_maximumf_single x 0xFF800000#32 reduces_S1024x1024_S1024 (.inl rfl) rfl (ix1 r)).trans ?_
  refine congrArg (Finset.fold max _ · Finset.univ) (funext fun k => congrArg x (funext fun d => Fin.ext ?_))
  match d with
  | ⟨0, _⟩ => rfl
  | ⟨1, _⟩ => rfl

theorem scoreDot_apply_l0 (i : S1024x1024.Idx) (q : dot_S1024x128_S1024x128_S1024x1024_1_1_0_0_n_n.contr.Idx) : (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem scoreDot_apply_r0 (i : S1024x1024.Idx) (q : dot_S1024x128_S1024x128_S1024x1024_1_1_0_0_n_n.contr.Idx) : (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl

/-- The score product: at (query row p, slot q) the sum over the 128 fused channels of the query row times the slot row. -/
theorem scoreDot_apply (a : FVec Ideal S1024x128 .bf16) (b : FVec Ideal S1024x128 .bf16) (p q : Fin 1024) :
    matmul dot_S1024x128_S1024x128_S1024x1024_1_1_0_0_n_n none a b (constant S1024x1024 .f32 0x00000000#32) (ix2 p q)
      = ∑ k : Fin 128, a (ix2 p k) * b (ix2 q k) := by
  refine (Ideal.matmul_constant_zero_apply dot_S1024x128_S1024x128_S1024x1024_1_1_0_0_n_n none a b (ix2 p q)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun d => Fin.ext (by
    match d with
    | ⟨0, _⟩ => exact scoreDot_apply_l0 _ _
    | ⟨1, _⟩ => exact (dot_S1024x128_S1024x128_S1024x1024_1_1_0_0_n_n.lhsIdx_val_of_single rfl _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun d => Fin.ext (by
    match d with
    | ⟨0, _⟩ => exact scoreDot_apply_r0 _ _
    | ⟨1, _⟩ => exact (dot_S1024x128_S1024x128_S1024x1024_1_1_0_0_n_n.rhsIdx_val_of_single rfl _ _).trans hk)
  rw [el, er]

theorem valueDot_apply_l0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem valueDot_apply_r0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- The value product: at (value channel p, query row q) the sum over the block's slots of the value times the row's weight. -/
theorem valueDot_apply (a : FVec Ideal S1024x1024 .bf16) (b : FVec Ideal S1024x1024 .bf16) (p q : Fin 1024) :
    matmul dot_S1024x1024_S1024x1024_S1024x1024_1_1_0_0_n_n none a b (constant S1024x1024 .f32 0x00000000#32) (ix2 p q)
      = ∑ k : Fin 1024, a (ix2 p k) * b (ix2 q k) := by
  refine (Ideal.matmul_constant_zero_apply dot_S1024x1024_S1024x1024_S1024x1024_1_1_0_0_n_n none a b (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun d => Fin.ext (by
    match d with
    | ⟨0, _⟩ => exact valueDot_apply_l0 _ _
    | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun d => Fin.ext (by
    match d with
    | ⟨0, _⟩ => exact valueDot_apply_r0 _ _
    | ⟨1, _⟩ => exact (dot_S1024x1024_S1024x1024_S1024x1024_1_1_0_0_n_n.rhsIdx_val_of_single rfl _ _).trans hk)
  rw [el, er]

end Cert.KSide

end
-- ==== Proof.Consts.lean ====
/-
  The float literals the two programs spell, as the extended reals their bit patterns denote: +0.0 is 0, 2.0 is 2,
  0.125 is 1/8, the negative infinity pattern is ⊥ and the positive one ⊤.  Every module of this proof reads its
  literals here, so the patterns are unfolded in one place only.
-/
import Idealize.ShloMosaic.PureOps.Ideal.Laws

noncomputable section

namespace Cert.Consts

open Idealize.ShloMosaic

/-- +0.0 denotes 0. -/
theorem ofBits_zero : Ideal.ofBits .f32 0x00000000#32 = 0 := by
  simp [Ideal.ofBits, Ideal.ieee]

/-- 2.0 denotes the real 2. -/
theorem ofBits_two : Ideal.ofBits .f32 0x40000000#32 = ((2 : ℝ) : EReal) := by
  simp [Ideal.ofBits, Ideal.ieee, -EReal.coe_mul]; norm_num

/-- 0.125 denotes the real 1/8. -/
theorem ofBits_eighth : Ideal.ofBits .f32 0x3E000000#32 = ((1 / 8 : ℝ) : EReal) := by
  simp [Ideal.ofBits, Ideal.ieee, -EReal.coe_mul]; norm_num

/-- The negative infinity pattern denotes ⊥. -/
theorem ofBits_neg_inf : Ideal.ofBits .f32 0xFF800000#32 = (⊥ : EReal) := by
  simp [Ideal.ofBits, Ideal.ieee]

/-- The positive infinity pattern denotes ⊤. -/
theorem ofBits_pos_inf : Ideal.ofBits .f32 0x7F800000#32 = (⊤ : EReal) := by
  simp [Ideal.ofBits, Ideal.ieee]

end Cert.Consts

end
-- ==== Proof.KStep.lean ====
/-
  The terms one grid point stores, read at explicit coordinates on the extended reals.

  With Q, K the two [1024,128] blocks, b the [1024,1] offsets, h the [1,1024] shrinkage and V the [1024,1024] values:
    score (r, j)      = ((Σ_k Q (r,k) K (j,k)) − b r) · h j · (1/8)
    new maximum r     = max (m r) (max_j score (r, j))            (the inner maximum taken from −∞)
    rescaling r       = exp (m r − new maximum r)
    weight (r, j)     = exp (score (r, j) − new maximum r)
    new normaliser r  = rescaling r · ℓ r + Σ_j weight (r, j)
    new numerator (v, r) = rescaling r · acc (v, r) + Σ_j V (v, j) · weight (r, j)
    output (v, r)     = new numerator (v, r) / new normaliser r
  and the three reset blocks are constant −∞, 0, 0.
-/
import proofs.«121614_j13091060318871_2_alg».proof.Proof.KLayout
import proofs.«121614_j13091060318871_2_alg».proof.Proof.Consts

set_option maxRecDepth 16384

noncomputable section

open Idealize.ShloMosaic Idealize.ShloMosaic.ValueIdx

namespace Cert.KSide

open Cert.KernelIdeal Cert.KernelIdeal.Gen

variable (x0 x2 : FVec Ideal S1024x128 .bf16) (x1 : FVec Ideal S1024x1 .f32) (x3 : FVec Ideal S1x1024 .f32)
  (x4 : FVec Ideal S1024x1024 .bf16)

/-- The score of slot j for query row r. -/
theorem scores_apply (r j : Fin 1024) :
    k0_pay7 (F := Ideal) x0 x2 x1 x3 (ix2 r j)
      = ((∑ k : Fin 128, x0 (ix2 r k) * x2 (ix2 j k)) - x1 (ix2 r 0)) * x3 (ix2 0 j) * ((1 / 8 : ℝ) : EReal) := by
  unfold k0_pay7
  simp only [shapeCast_self]
  show (matmul dot_S1024x128_S1024x128_S1024x1024_1_1_0_0_n_n none x0 x2 (constant S1024x1024 .f32 0x00000000#32) (ix2 r j)
      - broadcastTo S1024x1024 x1 broadcasts_S1024x1_S1024x1024 (ix2 r j))
      * broadcastTo S1024x1024 x3 broadcasts_S1x1024_S1024x1024 (ix2 r j) * Ideal.ofBits .f32 0x3E000000#32 = _
  rw [scoreDot_apply, bcastCol_apply, bcastRow_apply, Consts.ofBits_eighth]

/-- The new maximum of row r. -/
theorem newMax_apply (mp : FVec Ideal S1024x1 .f32) (r : Fin 1024) :
    k0_pay8 (F := Ideal) x0 x2 x1 x3 mp (ix2 r 0)
      = max (mp (ix2 r 0)) ((Finset.univ : Finset (Fin 1024)).fold max (⊥ : EReal) fun k => k0_pay7 (F := Ideal) x0 x2 x1 x3 (ix2 r k)) := by
  unfold k0_pay8
  dsimp only
  rw [maximumf_apply, colOfVec_apply, rowMax_apply, Consts.ofBits_neg_inf]

/-- The rescaling factor of row r. -/
theorem rescale_apply (mp : FVec Ideal S1024x1 .f32) (r : Fin 1024) :
    k0_pay9 (F := Ideal) x0 x2 x1 x3 mp (ix2 r 0) = Ideal.exp (mp (ix2 r 0) - k0_pay8 (F := Ideal) x0 x2 x1 x3 mp (ix2 r 0)) := by
  unfold k0_pay9
  rfl

/-- The weight of slot j for row r. -/
theorem weight_apply (mp : FVec Ideal S1024x1 .f32) (r j : Fin 1024) :
    k0_pay10 (F := Ideal) x0 x2 x1 x3 mp (ix2 r j) = Ideal.exp (k0_pay7 (F := Ideal) x0 x2 x1 x3 (ix2 r j) - k0_pay8 (F := Ideal) x0 x2 x1 x3 mp (ix2 r 0)) := by
  unfold k0_pay10
  show Ideal.exp (k0_pay7 (F := Ideal) x0 x2 x1 x3 (ix2 r j) - broadcastTo S1024x1024 (k0_pay8 (F := Ideal) x0 x2 x1 x3 mp) broadcasts_S1024x1_S1024x1024 (ix2 r j)) = _
  rw [bcastCol_apply]

/-- The new normaliser of row r. -/
theorem newNorm_apply (mp lp : FVec Ideal S1024x1 .f32) (r : Fin 1024) :
    k0_pay11 (F := Ideal) x0 x2 x1 x3 mp lp (ix2 r 0)
      = k0_pay9 (F := Ideal) x0 x2 x1 x3 mp (ix2 r 0) * lp (ix2 r 0) + ∑ k : Fin 1024, k0_pay10 (F := Ideal) x0 x2 x1 x3 mp (ix2 r k) := by
  unfold k0_pay11
  simp only [shapeCast_self]
  show k0_pay9 (F := Ideal) x0 x2 x1 x3 mp (ix2 r 0) * lp (ix2 r 0)
      + shapeCast S1024x1 (multiReduction .add [1] S1024 (k0_pay10 (F := Ideal) x0 x2 x1 x3 mp) 0x00000000#32
          reduces_S1024x1024_S1024 (.inl rfl) rfl) shapeCasts_S1024_S1024x1 (ix2 r 0) = _
  rw [colOfVec_apply, rowSum_apply]

/-- The new numerator of value channel v for row r. -/
theorem newAcc_apply (a9 : FVec Ideal S1024x1 .f32) (a10 : FVec Ideal S1024x1024 .f32) (accp : FVec Ideal S1024x1024 .f32)
    (v r : Fin 1024) :
    k0_pay1 (F := Ideal) a9 a10 x4 accp (ix2 v r)
      = a9 (ix2 r 0) * accp (ix2 v r) + ∑ k : Fin 1024, x4 (ix2 v k) * a10 (ix2 r k) := by
  unfold k0_pay1
  simp only [shapeCast_self]
  show broadcastTo S1024x1024 (transpose S1x1024 [1, 0] a9 transposes_S1024x1_p1_0_S1x1024) broadcasts_S1x1024_S1024x1024 (ix2 v r)
        * accp (ix2 v r)
      + matmul dot_S1024x1024_S1024x1024_S1024x1024_1_1_0_0_n_n none x4 (truncf .bf16 a10 bitsLt_bf16_f32) (constant S1024x1024 .f32 0x00000000#32) (ix2 v r) = _
  rw [bcastRow_apply, rowOfCol_apply, valueDot_apply]
  exact congrArg _ (Finset.sum_congr rfl fun k _ => rfl)

/-- The output: numerator over normaliser. -/
theorem quotient_apply (l : FVec Ideal S1024x1 .f32) (acc : FVec Ideal S1024x1024 .f32) (v r : Fin 1024) :
    k0_pay3 (F := Ideal) l acc (ix2 v r) = Ideal.div (acc (ix2 v r)) (l (ix2 r 0)) := by
  unfold k0_pay3
  show Ideal.div (acc (ix2 v r)) (broadcastTo S1024x1024 (transpose S1x1024 [1, 0] l transposes_S1024x1_p1_0_S1x1024)
      broadcasts_S1x1024_S1024x1024 (ix2 v r)) = _
  rw [bcastRow_apply, rowOfCol_apply]

/-- Storing the maximum changes nothing. -/
theorem keep_apply (x : FVec Ideal S1024x1 .f32) : k0_pay2 (F := Ideal) x = x := by
  unfold k0_pay2
  exact shapeCast_self _ _

/-- The reset maximum is −∞ everywhere. -/
theorem resetMax_apply (i : S1024x1.Idx) : k0_pay4 (F := Ideal) i = (⊥ : EReal) := by
  unfold k0_pay4
  simp only [shapeCast_self]
  exact Consts.ofBits_neg_inf

/-- The reset normaliser is 0 everywhere. -/
theorem resetNorm_apply (i : S1024x1.Idx) : k0_pay5 (F := Ideal) i = (0 : EReal) := by
  unfold k0_pay5
  simp only [shapeCast_self]
  exact Consts.ofBits_zero

/-- The reset numerators are 0 everywhere. -/
theorem resetAcc_apply (i : S1024x1024.Idx) : k0_pay6 (F := Ideal) i = (0 : EReal) := by
  unfold k0_pay6
  simp only [shapeCast_self]
  exact Consts.ofBits_zero

end Cert.KSide

end
-- ==== Proof.KPieces.lean ====
/-
  What one grid point leaves in the three carried buffers and in the output block, as pure functions of what it loads.

  A grid point (query block, slot block) loads the query rows Q, the slot rows K, the per-query offset b and the per-slot
  shrinkage, forms the block of scores S = (Q Kᵀ − b) · shrink / 8, and updates three carried quantities per query row:
  the running maximum  m' = max(m, max_j S_j),  the running normaliser  ℓ' = exp(m − m') ℓ + Σ_j exp(S_j − m')  and, per
  value channel, the running numerator  acc' = exp(m − m') acc + Σ_j V_j exp(S_j − m').  At the first slot block the three
  are first reset to −∞, 0, 0 and then read back; at the last slot block the output block acc' / ℓ' is stored as well.
  Each lemma below says that the contents a case leaves are exactly that case's stored term of the loaded blocks.
-/
import proofs.«121614_j13091060318871_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KSide

open Cert.KernelIdeal Cert.KernelIdeal.Gen

variable {F : FTy → Type} [FloatOps F]

/-- The origin of a rank-2 block. -/
theorem hz21 : (![0, 0] : Fin 2 → Nat) = fun _ => 0 := funext fun a => by fin_cases a <;> rfl

/-- The new running maximum, from the four input blocks and the maximum so far. -/
abbrev newMax (x0 : Vec F S1024x128 .bf16) (x1 : Vec F S1024x1 .f32) (x2 : Vec F S1024x128 .bf16) (x3 : Vec F S1x1024 .f32) (mPrev : Vec F S1024x1 .f32) : Vec F S1024x1 .f32 :=
  k0_pay2 (k0_pay8 x0 x2 x1 x3 mPrev)
/-- The new normaliser. -/
abbrev newNorm (x0 : Vec F S1024x128 .bf16) (x1 : Vec F S1024x1 .f32) (x2 : Vec F S1024x128 .bf16) (x3 : Vec F S1x1024 .f32) (mPrev lPrev : Vec F S1024x1 .f32) : Vec F S1024x1 .f32 :=
  k0_pay11 x0 x2 x1 x3 mPrev lPrev
/-- The new numerators. -/
abbrev newAcc (x0 : Vec F S1024x128 .bf16) (x1 : Vec F S1024x1 .f32) (x2 : Vec F S1024x128 .bf16) (x3 : Vec F S1x1024 .f32) (x4 : Vec F S1024x1024 .bf16) (mPrev : Vec F S1024x1 .f32) (accPrev : Vec F S1024x1024 .f32) : Vec F S1024x1024 .f32 :=
  k0_pay1 (k0_pay9 x0 x2 x1 x3 mPrev) (k0_pay10 x0 x2 x1 x3 mPrev) x4 accPrev

/-- First slot block: the maximum, over the reset value. -/
theorem max_first (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond0_0 i) (hc1 : ¬cond0_1 i) (x0 : Vec F S1024x128 .bf16) (x1 : Vec F S1024x1 .f32) (x2 : Vec F S1024x128 .bf16) (x3 : Vec F S1x1024 .f32) (x4 : Vec F S1024x1024 .bf16) :
    sout0_A_0 c i arg2 harg2 arg3 harg3 arg4 harg4 arg5 harg5 arg6 harg6 arg7 harg7 arg8 harg8 arg9 harg9 arg10 harg10 hc0 hc1 x0 x1 x2 x3 x4 = newMax x0 x1 x2 x3 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

/-- First slot block: the normaliser, over the reset values. -/
theorem norm_first (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond0_0 i) (hc1 : ¬cond0_1 i) (x0 : Vec F S1024x128 .bf16) (x1 : Vec F S1024x1 .f32) (x2 : Vec F S1024x128 .bf16) (x3 : Vec F S1x1024 .f32) (x4 : Vec F S1024x1024 .bf16) :
    sout0_A_1 c i arg2 harg2 arg3 harg3 arg4 harg4 arg5 harg5 arg6 harg6 arg7 harg7 arg8 harg8 arg9 harg9 arg10 harg10 hc0 hc1 x0 x1 x2 x3 x4 = newNorm x0 x1 x2 x3 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

/-- First slot block: the numerators, over the reset values. -/
theorem acc_first (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond0_0 i) (hc1 : ¬cond0_1 i) (x0 : Vec F S1024x128 .bf16) (x1 : Vec F S1024x1 .f32) (x2 : Vec F S1024x128 .bf16) (x3 : Vec F S1x1024 .f32) (x4 : Vec F S1024x1024 .bf16) :
    sout0_A_2 c i arg2 harg2 arg3 harg3 arg4 harg4 arg5 harg5 arg6 harg6 arg7 harg7 arg8 harg8 arg9 harg9 arg10 harg10 hc0 hc1 x0 x1 x2 x3 x4 = newAcc x0 x1 x2 x3 x4 k0_pay4 k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

/-- A middle slot block: the maximum. -/
theorem max_mid (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond0_0 i) (hc1 : ¬cond0_1 i) (x0 : Vec F S1024x128 .bf16) (x1 : Vec F S1024x1 .f32) (x2 : Vec F S1024x128 .bf16) (x3 : Vec F S1x1024 .f32) (x4 : Vec F S1024x1024 .bf16) (xs0 : Vec F S1024x1 .f32) (xs1 : Vec F S1024x1 .f32) (xs2 : Vec F S1024x1024 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = newMax x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

/-- A middle slot block: the normaliser. -/
theorem norm_mid (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond0_0 i) (hc1 : ¬cond0_1 i) (x0 : Vec F S1024x128 .bf16) (x1 : Vec F S1024x1 .f32) (x2 : Vec F S1024x128 .bf16) (x3 : Vec F S1x1024 .f32) (x4 : Vec F S1024x1024 .bf16) (xs0 : Vec F S1024x1 .f32) (xs1 : Vec F S1024x1 .f32) (xs2 : Vec F S1024x1024 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = newNorm x0 x1 x2 x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

/-- A middle slot block: the numerators. -/
theorem acc_mid (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond0_0 i) (hc1 : ¬cond0_1 i) (x0 : Vec F S1024x128 .bf16) (x1 : Vec F S1024x1 .f32) (x2 : Vec F S1024x128 .bf16) (x3 : Vec F S1x1024 .f32) (x4 : Vec F S1024x1024 .bf16) (xs0 : Vec F S1024x1 .f32) (xs1 : Vec F S1024x1 .f32) (xs2 : Vec F S1024x1024 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = newAcc x0 x1 x2 x3 x4 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

/-- The last slot block: the maximum. -/
theorem max_last (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond0_0 i) (hc1 : cond0_1 i) (x0 : Vec F S1024x128 .bf16) (x1 : Vec F S1024x1 .f32) (x2 : Vec F S1024x128 .bf16) (x3 : Vec F S1x1024 .f32) (x4 : Vec F S1024x1024 .bf16) (xs0 : Vec F S1024x1 .f32) (xs1 : Vec F S1024x1 .f32) (xs2 : Vec F S1024x1024 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = newMax x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

/-- The last slot block: the normaliser. -/
theorem norm_last (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond0_0 i) (hc1 : cond0_1 i) (x0 : Vec F S1024x128 .bf16) (x1 : Vec F S1024x1 .f32) (x2 : Vec F S1024x128 .bf16) (x3 : Vec F S1x1024 .f32) (x4 : Vec F S1024x1024 .bf16) (xs0 : Vec F S1024x1 .f32) (xs1 : Vec F S1024x1 .f32) (xs2 : Vec F S1024x1024 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = newNorm x0 x1 x2 x3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

/-- The last slot block: the numerators. -/
theorem acc_last (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond0_0 i) (hc1 : cond0_1 i) (x0 : Vec F S1024x128 .bf16) (x1 : Vec F S1024x1 .f32) (x2 : Vec F S1024x128 .bf16) (x3 : Vec F S1x1024 .f32) (x4 : Vec F S1024x1024 .bf16) (xs0 : Vec F S1024x1 .f32) (xs1 : Vec F S1024x1 .f32) (xs2 : Vec F S1024x1024 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = newAcc x0 x1 x2 x3 x4 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

/-- The last slot block: the output block is the new numerators over the new normaliser. -/
theorem out_last (c : Dev nD) (i : grid0.Coords) (arg2 : Memref sig .tc .vmem S1024x128 .bf16) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond0_0 i) (hc1 : cond0_1 i) (x0 : Vec F S1024x128 .bf16) (x1 : Vec F S1024x1 .f32) (x2 : Vec F S1024x128 .bf16) (x3 : Vec F S1x1024 .f32) (x4 : Vec F S1024x1024 .bf16) (xs0 : Vec F S1024x1 .f32) (xs1 : Vec F S1024x1 .f32) (xs2 : Vec F S1024x1024 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay3 (newNorm x0 x1 x2 x3 xs0 xs1) (newAcc x0 x1 x2 x3 x4 xs0 xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz21]
  simp only [View.readCov_unit_zero (S := S1024x1) _ hz21, View.readCov_unit_zero (S := S1024x1024) _ hz21, View.readAt_eq_ld,
    harg2.read_unread, harg3.read_unread, harg4.read_unread, harg5.read_unread, harg6.read_unread, harg8.read_unread, harg9.read_unread, harg10.read_unread,
    View.ld_unit_zero (S := S1024x128) hz21, View.ld_unit_zero (S := S1024x1) hz21, View.ld_unit_zero (S := S1x1024) hz21, View.ld_unit_zero (S := S1024x1024) hz21]

end Cert.KSide

end
-- ==== Proof.Softmax.lean ====
/-
  Real-number facts about a softmax read-out accumulated block by block.

  For weights w and scores s over a finite set, the read-out (Σ w·exp s) / Σ exp s is unchanged when one real M is
  subtracted from every score (both sums pick up the factor exp(−M)); normalising each exponential before the
  weighted sum gives the same number; and a running pair (Σ over the first a slots of w·exp(s − M)), rescaled by
  exp(M − M') when the reference point moves from M to M', then extended by the next b slots taken at M', is the
  sum over the first a + b slots at M'.  No property of M or M' is used: any reals do.
-/
import Mathlib.Analysis.SpecialFunctions.Exp

open scoped BigOperators

namespace Cert.Softmax

/-- Subtracting one real from every score does not change the read-out. -/
theorem ratio_shift {N : Type*} [Fintype N] (w s : N → ℝ) (M : ℝ) :
    (∑ n, w n * Real.exp (s n - M)) / (∑ n, Real.exp (s n - M))
      = (∑ n, w n * Real.exp (s n)) / ∑ n, Real.exp (s n) := by
  have h : ∀ n, Real.exp (s n - M) = Real.exp (s n) * Real.exp (-M) := fun n => by
    rw [← Real.exp_add, sub_eq_add_neg]
  simp only [h]
  rw [← Finset.sum_mul]
  have e : ∑ n, w n * (Real.exp (s n) * Real.exp (-M)) = (∑ n, w n * Real.exp (s n)) * Real.exp (-M) := by
    rw [Finset.sum_mul]; exact Finset.sum_congr rfl fun n _ => by ring
  rw [e, mul_div_mul_right _ _ (Real.exp_pos _).ne']

/-- Dividing each term by the total first, then taking the weighted sum, is the weighted sum over the total. -/
theorem sum_mul_div {N : Type*} [Fintype N] (w e : N → ℝ) :
    ∑ n, w n * (e n / ∑ k, e k) = (∑ n, w n * e n) / ∑ k, e k := by
  rw [div_eq_mul_inv, Finset.sum_mul]
  exact Finset.sum_congr rfl fun n _ => by rw [div_eq_mul_inv]; ring

/-- A sum of exponentials over a nonempty finite set is positive, so nonzero. -/
theorem sum_exp_ne_zero {N : Type*} [Fintype N] [Nonempty N] (s : N → ℝ) : (∑ n, Real.exp (s n)) ≠ 0 :=
  (Finset.sum_pos (fun n _ => Real.exp_pos (s n)) Finset.univ_nonempty).ne'

/-- One block of the running sum: the first a slots taken at M, rescaled to M', plus the next b slots at M'. -/
theorem step_sum (w s : ℕ → ℝ) (M M' : ℝ) (a b : ℕ) :
    Real.exp (M - M') * (∑ n ∈ Finset.range a, w n * Real.exp (s n - M))
        + ∑ r : Fin b, w (a + r.val) * Real.exp (s (a + r.val) - M')
      = ∑ n ∈ Finset.range (a + b), w n * Real.exp (s n - M') := by
  rw [Finset.sum_range_add, Finset.mul_sum, Finset.sum_range (fun x => w (a + x) * Real.exp (s (a + x) - M'))]
  congr 1
  refine Finset.sum_congr rfl fun n _ => ?_
  have : Real.exp (M - M') * Real.exp (s n - M) = Real.exp (s n - M') := by
    rw [← Real.exp_add]; congr 1; ring
  rw [← this]; ring

/-- The same with every weight one. -/
theorem step_sum_one (s : ℕ → ℝ) (M M' : ℝ) (a b : ℕ) :
    Real.exp (M - M') * (∑ n ∈ Finset.range a, Real.exp (s n - M))
        + ∑ r : Fin b, Real.exp (s (a + r.val) - M')
      = ∑ n ∈ Finset.range (a + b), Real.exp (s n - M') := by
  have := step_sum (fun _ => 1) s M M' a b
  simpa only [one_mul] using this

/-- The first block: nothing accumulated yet. -/
theorem first_sum (w s : ℕ → ℝ) (M' : ℝ) (b : ℕ) :
    ∑ r : Fin b, w r.val * Real.exp (s r.val - M') = ∑ n ∈ Finset.range b, w n * Real.exp (s n - M') :=
  (Finset.sum_range (fun x => w x * Real.exp (s x - M'))).symm

/-- After the last block the running sums are the sums over every slot. -/
theorem range_sum_eq (f : ℕ → ℝ) (n : ℕ) : ∑ k ∈ Finset.range n, f k = ∑ k : Fin n, f k.val :=
  Finset.sum_range f

end Cert.Softmax
-- ==== Proof.RowInv.lean ====
/-
  One query row of the block-by-block softmax read-out, on the extended reals.

  For one query row, write sc n for the score of slot n and w v n for the value of channel v at slot n.  After the
  first a slots the three carried quantities are, for SOME real M (the running maximum; nothing below uses which real
  it is):  the maximum slot holds M, the normaliser holds Σ_{n<a} exp(sc n − M), and channel v of the numerators holds
  Σ_{n<a} w v n exp(sc n − M).  A block of b further slots with scores S j = sc (a + j) and values X v j = w v (a + j)
  replaces them by m' = max(m, max_j S j), α ℓ + Σ_j exp(S j − m') and α acc v + Σ_j X v j exp(S j − m') with
  α = exp(m − m'), and the invariant holds again at a + b: m' is a real because a maximum of finitely many reals over
  a nonempty set is one, and exp(M − M') exp(sc n − M) = exp(sc n − M').  At the first block the carried quantities
  are −∞, 0, 0: then α = exp(−∞) = 0 and the same formulas start the invariant.  Once every slot is in, numerator
  over normaliser is the softmax read-out, whatever M was.
-/
import Idealize.ShloMosaic.PureOps.Ideal
import proofs.«121614_j13091060318871_2_alg».proof.Proof.Softmax

noncomputable section

open scoped BigOperators
open Idealize.ShloMosaic

namespace Cert.RowInv

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real, on the extended reals. -/
theorem exp_coe (z : ℝ) : Ideal.exp (z : EReal) = ((Real.exp z : ℝ) : EReal) := rfl

/-- The exponential of −∞ is 0. -/
theorem exp_bot : Ideal.exp (⊥ : EReal) = 0 := rfl

/-- A maximum, from −∞, of finitely many reals over a nonempty index set is a real. -/
theorem fold_max_real {n : ℕ} [NeZero n] (f : Fin n → ℝ) :
    ∃ B : ℝ, (Finset.univ : Finset (Fin n)).fold max (⊥ : EReal) (fun k => (f k : EReal)) = (B : EReal) := by
  have h1 : (Finset.univ : Finset (Fin n)).fold max (⊥ : EReal) (fun k => (f k : EReal)) ≠ ⊥ := by
    have h : ((f 0 : ℝ) : EReal) ≤ (Finset.univ : Finset (Fin n)).fold max (⊥ : EReal) (fun k => (f k : EReal)) :=
      (Finset.le_fold_max _).2 (Or.inr ⟨0, Finset.mem_univ _, le_rfl⟩)
    exact ne_bot_of_le_ne_bot (EReal.coe_ne_bot _) h
  have h2 : (Finset.univ : Finset (Fin n)).fold max (⊥ : EReal) (fun k => (f k : EReal)) ≠ ⊤ :=
    ((Finset.fold_max_lt _).2 ⟨bot_lt_top, fun k _ => EReal.coe_lt_top _⟩).ne
  exact ⟨_, (EReal.coe_toReal h2 h1).symm⟩

variable {ι : Type} (sc : ℕ → ℝ) (w : ι → ℕ → ℝ)

/-- The three carried quantities of a row after its first a slots. -/
def Holds (a : ℕ) (m l : EReal) (acc : ι → EReal) : Prop :=
  ∃ M : ℝ, m = (M : EReal) ∧ l = ((∑ n ∈ Finset.range a, Real.exp (sc n - M) : ℝ) : EReal)
    ∧ ∀ v, acc v = ((∑ n ∈ Finset.range a, w v n * Real.exp (sc n - M) : ℝ) : EReal)

/-- The new normaliser, from a maximum that is the real M' and a rescaling factor that is the real α. -/
theorem update_norm {b : ℕ} (a : ℕ) (S : Fin b → EReal) (hS : ∀ j, S j = ((sc (a + j.val) : ℝ) : EReal)) (M' α L : ℝ) :
    ((α : ℝ) : EReal) * (L : EReal) + ∑ j, Ideal.exp (S j - (M' : EReal))
        = ((α * L + ∑ j : Fin b, Real.exp (sc (a + j.val) - M') : ℝ) : EReal) := by
  have e : ∀ j, Ideal.exp (S j - (M' : EReal)) = ((Real.exp (sc (a + j.val) - M') : ℝ) : EReal) := fun j => by
    rw [hS j, ← EReal.coe_sub, exp_coe]
  rw [EReal.coe_add, EReal.coe_mul, coe_sum]
  exact congrArg _ (Finset.sum_congr rfl fun j _ => e j)

/-- The new numerator of one value channel, likewise. -/
theorem update_acc {b : ℕ} (a : ℕ) (S : Fin b → EReal) (hS : ∀ j, S j = ((sc (a + j.val) : ℝ) : EReal))
    (X : ι → Fin b → EReal) (hX : ∀ v j, X v j = ((w v (a + j.val) : ℝ) : EReal)) (M' α A : ℝ) (v : ι) :
    ((α : ℝ) : EReal) * (A : EReal) + ∑ j, X v j * Ideal.exp (S j - (M' : EReal))
        = ((α * A + ∑ j : Fin b, w v (a + j.val) * Real.exp (sc (a + j.val) - M') : ℝ) : EReal) := by
  have e : ∀ j, Ideal.exp (S j - (M' : EReal)) = ((Real.exp (sc (a + j.val) - M') : ℝ) : EReal) := fun j => by
    rw [hS j, ← EReal.coe_sub, exp_coe]
  rw [EReal.coe_add, EReal.coe_mul, coe_sum]
  exact congrArg _ (Finset.sum_congr rfl fun j _ => by rw [hX v j, e j, EReal.coe_mul])

/-- A further block of b slots keeps the invariant. -/
theorem step {b : ℕ} [NeZero b] {a : ℕ} {m l : EReal} {acc : ι → EReal} (h : Holds sc w a m l acc)
    (S : Fin b → EReal) (hS : ∀ j, S j = ((sc (a + j.val) : ℝ) : EReal))
    (X : ι → Fin b → EReal) (hX : ∀ v j, X v j = ((w v (a + j.val) : ℝ) : EReal)) :
    Holds sc w (a + b) (max m (Finset.univ.fold max (⊥ : EReal) S))
      (Ideal.exp (m - max m (Finset.univ.fold max (⊥ : EReal) S)) * l
        + ∑ j, Ideal.exp (S j - max m (Finset.univ.fold max (⊥ : EReal) S)))
      (fun v => Ideal.exp (m - max m (Finset.univ.fold max (⊥ : EReal) S)) * acc v
        + ∑ j, X v j * Ideal.exp (S j - max m (Finset.univ.fold max (⊥ : EReal) S))) := by
  obtain ⟨M, hm, hl, hacc⟩ := h
  obtain ⟨B, hB⟩ := fold_max_real (fun j : Fin b => sc (a + j.val))
  have hSf : S = fun j => ((sc (a + j.val) : ℝ) : EReal) := funext hS
  have hmax : max m (Finset.univ.fold max (⊥ : EReal) S) = ((max M B : ℝ) : EReal) := by
    rw [hSf, hB, hm, ← EReal.coe_strictMono.monotone.map_max]
  rw [hmax]
  have hα : Ideal.exp (m - ((max M B : ℝ) : EReal)) = ((Real.exp (M - max M B) : ℝ) : EReal) := by
    rw [hm, ← EReal.coe_sub, exp_coe]
  refine ⟨max M B, rfl, ?_, fun v => ?_⟩
  · rw [hα, hl, update_norm sc a S hS (max M B), Softmax.step_sum_one]
  · show Ideal.exp (m - ((max M B : ℝ) : EReal)) * acc v + _ = _
    rw [hα, hacc v, update_acc sc w a S hS X hX (max M B), Softmax.step_sum]

/-- The first block, from the reset values −∞, 0, 0, starts the invariant. -/
theorem first {b : ℕ} [NeZero b] (S : Fin b → EReal) (hS : ∀ j, S j = ((sc j.val : ℝ) : EReal))
    (X : ι → Fin b → EReal) (hX : ∀ v j, X v j = ((w v j.val : ℝ) : EReal)) :
    Holds sc w b (max (⊥ : EReal) (Finset.univ.fold max (⊥ : EReal) S))
      (Ideal.exp ((⊥ : EReal) - max (⊥ : EReal) (Finset.univ.fold max (⊥ : EReal) S)) * 0
        + ∑ j, Ideal.exp (S j - max (⊥ : EReal) (Finset.univ.fold max (⊥ : EReal) S)))
      (fun v => Ideal.exp ((⊥ : EReal) - max (⊥ : EReal) (Finset.univ.fold max (⊥ : EReal) S)) * 0
        + ∑ j, X v j * Ideal.exp (S j - max (⊥ : EReal) (Finset.univ.fold max (⊥ : EReal) S))) := by
  obtain ⟨B, hB⟩ := fold_max_real (fun j : Fin b => sc j.val)
  have hSf : S = fun j => ((sc j.val : ℝ) : EReal) := funext hS
  have hmax : max (⊥ : EReal) (Finset.univ.fold max (⊥ : EReal) S) = ((B : ℝ) : EReal) := by
    rw [hSf, hB, max_eq_right bot_le]
  rw [hmax]
  have hS' : ∀ j : Fin b, S j = ((sc (0 + j.val) : ℝ) : EReal) := fun j => by rw [Nat.zero_add]; exact hS j
  have hX' : ∀ v (j : Fin b), X v j = ((w v (0 + j.val) : ℝ) : EReal) := fun v j => by rw [Nat.zero_add]; exact hX v j
  refine ⟨B, rfl, ?_, fun v => ?_⟩
  · rw [mul_zero, zero_add]
    have := update_norm sc 0 S hS' B 0 0
    rw [EReal.coe_zero, zero_mul, zero_add] at this
    rw [this, zero_mul, zero_add]
    simp only [Nat.zero_add]
    exact congrArg _ (Softmax.range_sum_eq (fun n => Real.exp (sc n - B)) b).symm
  · show _ * 0 + _ = _
    rw [mul_zero, zero_add]
    have := update_acc sc w 0 S hS' X hX' B 0 0 v
    rw [EReal.coe_zero, zero_mul, zero_add] at this
    rw [this, zero_mul, zero_add]
    simp only [Nat.zero_add]
    exact congrArg _ (Softmax.first_sum (w v) sc B b)

/-- With every slot in, numerator over normaliser is the read-out. -/
theorem final {N : ℕ} [NeZero N] {m l : EReal} {acc : ι → EReal} (h : Holds sc w N m l acc) (v : ι) :
    Ideal.div (acc v) l
      = (((∑ n : Fin N, w v n.val * Real.exp (sc n.val)) / ∑ n : Fin N, Real.exp (sc n.val) : ℝ) : EReal) := by
  obtain ⟨M, _, hl, hacc⟩ := h
  rw [hl, hacc v, Softmax.range_sum_eq, Softmax.range_sum_eq]
  have hne : (∑ n : Fin N, Real.exp (sc n.val - M)) ≠ 0 := Softmax.sum_exp_ne_zero (fun n : Fin N => sc n.val - M)
  rw [Ideal.div_coe hne, ← EReal.coe_mul]
  congr 1
  rw [← Softmax.ratio_shift (fun n : Fin N => w v n.val) (fun n : Fin N => sc n.val) M, mul_one_div]

end Cert.RowInv

end
-- ==== Proof.KRow.lean ====
/-
  One query row through one grid point.

  Fix a query row r of the block.  If the block's scores in that row are the reals sc (a + j) and the value block
  holds the reals w v (a + j), then what the point stores in row r of the three carried buffers keeps the row
  invariant: from the reset values it starts it at the block's 1024 slots, from an invariant at a it reaches
  a + 1024; and with every slot in, the stored output entry (v, r) is the read-out of channel v.
-/
import proofs.«121614_j13091060318871_2_alg».proof.Proof.KStep
import proofs.«121614_j13091060318871_2_alg».proof.Proof.KPieces
import proofs.«121614_j13091060318871_2_alg».proof.Proof.RowInv

set_option maxRecDepth 16384

noncomputable section

open scoped BigOperators
open Idealize.ShloMosaic Idealize.ShloMosaic.ValueIdx

namespace Cert.KSide

open Cert.KernelIdeal Cert.KernelIdeal.Gen

/-- The invariant transported along equalities of the three carried entries. -/
theorem holds_congr {sc : ℕ → ℝ} {w : Fin 1024 → ℕ → ℝ} {a : ℕ} {m l m' l' : EReal} {acc acc' : Fin 1024 → EReal}
    (h : RowInv.Holds sc w a m l acc) (e1 : m' = m) (e2 : l' = l) (e3 : ∀ v, acc' v = acc v) :
    RowInv.Holds sc w a m' l' acc' := by
  obtain rfl : acc' = acc := funext e3
  subst e1 e2
  exact h

variable (x0 x2 : FVec Ideal S1024x128 .bf16) (x1 : FVec Ideal S1024x1 .f32) (x3 : FVec Ideal S1x1024 .f32)
  (x4 : FVec Ideal S1024x1024 .bf16) (sc : ℕ → ℝ) (w : Fin 1024 → ℕ → ℝ) (r : Fin 1024)

/-- The first slot block starts the row's invariant at 1024 slots. -/
theorem holds_first (hS : ∀ j : Fin 1024, k0_pay7 (F := Ideal) x0 x2 x1 x3 (ix2 r j) = ((sc j.val : ℝ) : EReal))
    (hX : ∀ v j : Fin 1024, x4 (ix2 v j) = ((w v j.val : ℝ) : EReal)) :
    RowInv.Holds sc w 1024 (newMax (F := Ideal) x0 x1 x2 x3 (k0_pay4 (F := Ideal)) (ix2 r 0))
      (newNorm (F := Ideal) x0 x1 x2 x3 (k0_pay4 (F := Ideal)) (k0_pay5 (F := Ideal)) (ix2 r 0))
      (fun v => newAcc (F := Ideal) x0 x1 x2 x3 x4 (k0_pay4 (F := Ideal)) (k0_pay6 (F := Ideal)) (ix2 v r)) := by
  have h := RowInv.first sc w (fun j => k0_pay7 (F := Ideal) x0 x2 x1 x3 (ix2 r j)) hS (fun v j => x4 (ix2 v j)) hX
  have e8 : k0_pay8 (F := Ideal) x0 x2 x1 x3 (k0_pay4 (F := Ideal)) (ix2 r 0) = max (⊥ : EReal) ((Finset.univ : Finset (Fin 1024)).fold max (⊥ : EReal) fun j => k0_pay7 (F := Ideal) x0 x2 x1 x3 (ix2 r j)) := by
    rw [newMax_apply, resetMax_apply]
  refine holds_congr h ?_ ?_ fun v => ?_
  · show k0_pay2 (F := Ideal) (k0_pay8 (F := Ideal) x0 x2 x1 x3 (k0_pay4 (F := Ideal))) (ix2 r 0) = _
    rw [keep_apply, e8]
  · show k0_pay11 (F := Ideal) x0 x2 x1 x3 (k0_pay4 (F := Ideal)) (k0_pay5 (F := Ideal)) (ix2 r 0) = _
    rw [newNorm_apply, rescale_apply, resetMax_apply, resetNorm_apply, e8]
    exact congrArg _ (Finset.sum_congr rfl fun j _ => by rw [weight_apply, e8])
  · show k0_pay1 (F := Ideal) (k0_pay9 (F := Ideal) x0 x2 x1 x3 (k0_pay4 (F := Ideal))) (k0_pay10 (F := Ideal) x0 x2 x1 x3 (k0_pay4 (F := Ideal))) x4 (k0_pay6 (F := Ideal)) (ix2 v r) = _
    rw [newAcc_apply, rescale_apply, resetMax_apply, resetAcc_apply, e8]
    exact congrArg _ (Finset.sum_congr rfl fun j _ => by rw [weight_apply, e8])

/-- A further slot block moves the row's invariant from a to a + 1024 slots. -/
theorem holds_step (mp lp : FVec Ideal S1024x1 .f32) (accp : FVec Ideal S1024x1024 .f32) (a : ℕ)
    (h : RowInv.Holds sc w a (mp (ix2 r 0)) (lp (ix2 r 0)) (fun v => accp (ix2 v r)))
    (hS : ∀ j : Fin 1024, k0_pay7 (F := Ideal) x0 x2 x1 x3 (ix2 r j) = ((sc (a + j.val) : ℝ) : EReal))
    (hX : ∀ v j : Fin 1024, x4 (ix2 v j) = ((w v (a + j.val) : ℝ) : EReal)) :
    RowInv.Holds sc w (a + 1024) (newMax (F := Ideal) x0 x1 x2 x3 mp (ix2 r 0))
      (newNorm (F := Ideal) x0 x1 x2 x3 mp lp (ix2 r 0))
      (fun v => newAcc (F := Ideal) x0 x1 x2 x3 x4 mp accp (ix2 v r)) := by
  have h' := RowInv.step sc w h (fun j => k0_pay7 (F := Ideal) x0 x2 x1 x3 (ix2 r j)) hS (fun v j => x4 (ix2 v j)) hX
  have e8 : k0_pay8 (F := Ideal) x0 x2 x1 x3 mp (ix2 r 0) = max (mp (ix2 r 0)) ((Finset.univ : Finset (Fin 1024)).fold max (⊥ : EReal) fun j => k0_pay7 (F := Ideal) x0 x2 x1 x3 (ix2 r j)) := newMax_apply x0 x2 x1 x3 mp r
  refine holds_congr h' ?_ ?_ fun v => ?_
  · show k0_pay2 (F := Ideal) (k0_pay8 (F := Ideal) x0 x2 x1 x3 mp) (ix2 r 0) = _
    rw [keep_apply, e8]
  · show k0_pay11 (F := Ideal) x0 x2 x1 x3 mp lp (ix2 r 0) = _
    rw [newNorm_apply, rescale_apply, e8]
    exact congrArg _ (Finset.sum_congr rfl fun j _ => by rw [weight_apply, e8])
  · show k0_pay1 (F := Ideal) (k0_pay9 (F := Ideal) x0 x2 x1 x3 mp) (k0_pay10 (F := Ideal) x0 x2 x1 x3 mp) x4 accp (ix2 v r) = _
    rw [newAcc_apply, rescale_apply, e8]
    exact congrArg _ (Finset.sum_congr rfl fun j _ => by rw [weight_apply, e8])

/-- With all 8192 slots in, the stored output entry is the read-out. -/
theorem holds_final (l : FVec Ideal S1024x1 .f32) (acc : FVec Ideal S1024x1024 .f32) (M : EReal)
    (h : RowInv.Holds sc w 8192 M (l (ix2 r 0)) (fun v => acc (ix2 v r))) (v : Fin 1024) :
    k0_pay3 (F := Ideal) l acc (ix2 v r)
      = (((∑ n : Fin 8192, w v n.val * Real.exp (sc n.val)) / ∑ n : Fin 8192, Real.exp (sc n.val) : ℝ) : EReal) := by
  rw [quotient_apply]
  exact RowInv.final sc w h v

end Cert.KSide

end
-- ==== Proof.KComp.lean ====
/-
  The three carried quantities, and at the last slot block the output block, after each grid point, as the update
  formulas applied to the point's input blocks and to what the point before left.

  The grid runs through the 8 slot blocks of a query block in order.  At the first slot block (point number ≡ 0 mod 8)
  the running maximum, normaliser and numerators are the updates of the reset values −∞, 0, 0; at every later slot block
  they are the updates of the triple the previous point left; at the last slot block (≡ 7 mod 8) the output block is
  moreover the new numerators divided by the new normaliser.
-/
import proofs.«121614_j13091060318871_2_alg».proof.Proof.KPieces

set_option maxRecDepth 16384

noncomputable section

open Idealize.ShloMosaic Idealize.ShloMosaic.TcCoe Idealize.SL.Sem

namespace Cert.KSide

open Cert.KernelIdeal Cert.KernelIdeal.Gen

variable {F : FTy → Type} [FloatOps F] (m : (ℓ : Loc nD τ sig) → Buf (Elt F) ℓ) (c : Dev nD)

/-- What the grid point before t left: output block, then the carried maximum, normaliser and numerators. -/
abbrev prev (t : Fin cfg0.N) : Vec F S1024x1024 .f32 × Vec F S1024x1 .f32 × Vec F S1024x1 .f32 × Vec F S1024x1024 .f32 :=
  outsAt0 m c (t.val - 1) (Nat.lt_of_le_of_lt (Nat.sub_le _ _) t.isLt)

/-- First slot block: the maximum is the update of −∞. -/
theorem first_max (t : Fin cfg0.N) (h0 : t.val % 8 = 0) (h1 : ¬t.val % 8 = 7) :
    (outsAt0 m c t.val t.isLt).2.1 = newMax (iblk m c 0 t) (iblk m c 1 t) (iblk m c 2 t) (iblk m c 3 t) k0_pay4 := by
  have e := congrArg (fun p => p.2.1) (outsAt0_A m c t h0 h1)
  dsimp only at e
  exact e.trans (max_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t))

/-- First slot block: the normaliser is the update of 0 (maximum so far −∞). -/
theorem first_norm (t : Fin cfg0.N) (h0 : t.val % 8 = 0) (h1 : ¬t.val % 8 = 7) :
    (outsAt0 m c t.val t.isLt).2.2.1 = newNorm (iblk m c 0 t) (iblk m c 1 t) (iblk m c 2 t) (iblk m c 3 t) k0_pay4 k0_pay5 := by
  have e := congrArg (fun p => p.2.2.1) (outsAt0_A m c t h0 h1)
  dsimp only at e
  exact e.trans (norm_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t))

/-- First slot block: the numerators are the update of 0 (maximum so far −∞). -/
theorem first_acc (t : Fin cfg0.N) (h0 : t.val % 8 = 0) (h1 : ¬t.val % 8 = 7) :
    (outsAt0 m c t.val t.isLt).2.2.2 = newAcc (iblk m c 0 t) (iblk m c 1 t) (iblk m c 2 t) (iblk m c 3 t) (iblk m c 4 t) k0_pay4 k0_pay6 := by
  have e := congrArg (fun p => p.2.2.2) (outsAt0_A m c t h0 h1)
  dsimp only at e
  exact e.trans (acc_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t))

/-- A middle slot block: the maximum is the update of the previous point's. -/
theorem mid_max (t : Fin cfg0.N) (h0 : ¬t.val % 8 = 0) (h1 : ¬t.val % 8 = 7) :
    (outsAt0 m c t.val t.isLt).2.1 = newMax (iblk m c 0 t) (iblk m c 1 t) (iblk m c 2 t) (iblk m c 3 t) (prev m c t).2.1 := by
  have e := congrArg (fun p => p.2.1) (outsAt0_B m c t h0 h1)
  dsimp only at e
  exact e.trans (max_mid (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (prev m c t).2.1 (prev m c t).2.2.1 (prev m c t).2.2.2)

/-- A middle slot block: the normaliser is the update of the previous point's. -/
theorem mid_norm (t : Fin cfg0.N) (h0 : ¬t.val % 8 = 0) (h1 : ¬t.val % 8 = 7) :
    (outsAt0 m c t.val t.isLt).2.2.1 = newNorm (iblk m c 0 t) (iblk m c 1 t) (iblk m c 2 t) (iblk m c 3 t) (prev m c t).2.1 (prev m c t).2.2.1 := by
  have e := congrArg (fun p => p.2.2.1) (outsAt0_B m c t h0 h1)
  dsimp only at e
  exact e.trans (norm_mid (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (prev m c t).2.1 (prev m c t).2.2.1 (prev m c t).2.2.2)

/-- A middle slot block: the numerators are the update of the previous point's. -/
theorem mid_acc (t : Fin cfg0.N) (h0 : ¬t.val % 8 = 0) (h1 : ¬t.val % 8 = 7) :
    (outsAt0 m c t.val t.isLt).2.2.2 = newAcc (iblk m c 0 t) (iblk m c 1 t) (iblk m c 2 t) (iblk m c 3 t) (iblk m c 4 t) (prev m c t).2.1 (prev m c t).2.2.2 := by
  have e := congrArg (fun p => p.2.2.2) (outsAt0_B m c t h0 h1)
  dsimp only at e
  exact e.trans (acc_mid (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (prev m c t).2.1 (prev m c t).2.2.1 (prev m c t).2.2.2)

/-- The last slot block: the maximum is the update of the previous point's. -/
theorem last_max (t : Fin cfg0.N) (h0 : ¬t.val % 8 = 0) (h1 : t.val % 8 = 7) :
    (outsAt0 m c t.val t.isLt).2.1 = newMax (iblk m c 0 t) (iblk m c 1 t) (iblk m c 2 t) (iblk m c 3 t) (prev m c t).2.1 := by
  have e := congrArg (fun p => p.2.1) (outsAt0_C m c t h0 h1)
  dsimp only at e
  exact e.trans (max_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (prev m c t).2.1 (prev m c t).2.2.1 (prev m c t).2.2.2)

/-- The last slot block: the normaliser is the update of the previous point's. -/
theorem last_norm (t : Fin cfg0.N) (h0 : ¬t.val % 8 = 0) (h1 : t.val % 8 = 7) :
    (outsAt0 m c t.val t.isLt).2.2.1 = newNorm (iblk m c 0 t) (iblk m c 1 t) (iblk m c 2 t) (iblk m c 3 t) (prev m c t).2.1 (prev m c t).2.2.1 := by
  have e := congrArg (fun p => p.2.2.1) (outsAt0_C m c t h0 h1)
  dsimp only at e
  exact e.trans (norm_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (prev m c t).2.1 (prev m c t).2.2.1 (prev m c t).2.2.2)

/-- The last slot block: the numerators are the update of the previous point's. -/
theorem last_acc (t : Fin cfg0.N) (h0 : ¬t.val % 8 = 0) (h1 : t.val % 8 = 7) :
    (outsAt0 m c t.val t.isLt).2.2.2 = newAcc (iblk m c 0 t) (iblk m c 1 t) (iblk m c 2 t) (iblk m c 3 t) (iblk m c 4 t) (prev m c t).2.1 (prev m c t).2.2.2 := by
  have e := congrArg (fun p => p.2.2.2) (outsAt0_C m c t h0 h1)
  dsimp only at e
  exact e.trans (acc_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (prev m c t).2.1 (prev m c t).2.2.1 (prev m c t).2.2.2)

/-- The last slot block: the output block is the new numerators over the new normaliser. -/
theorem last_out (t : Fin cfg0.N) (h0 : ¬t.val % 8 = 0) (h1 : t.val % 8 = 7) :
    (outsAt0 m c t.val t.isLt).1 = k0_pay3 (newNorm (iblk m c 0 t) (iblk m c 1 t) (iblk m c 2 t) (iblk m c 3 t) (prev m c t).2.1 (prev m c t).2.2.1) (newAcc (iblk m c 0 t) (iblk m c 1 t) (iblk m c 2 t) (iblk m c 3 t) (iblk m c 4 t) (prev m c t).2.1 (prev m c t).2.2.2) := by
  have e := congrArg (fun p => p.1) (outsAt0_C m c t h0 h1)
  dsimp only at e
  exact e.trans (out_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (prev m c t).2.1 (prev m c t).2.2.1 (prev m c t).2.2.2)

/-- First slot block of a query block: the carried triple is the update of the reset values. -/
theorem comp_first (t : Fin cfg0.N) (h0 : t.val % 8 = 0) (h1 : ¬t.val % 8 = 7) :
    (outsAt0 m c t.val t.isLt).2.1 = newMax (iblk m c 0 t) (iblk m c 1 t) (iblk m c 2 t) (iblk m c 3 t) k0_pay4
    ∧ (outsAt0 m c t.val t.isLt).2.2.1 = newNorm (iblk m c 0 t) (iblk m c 1 t) (iblk m c 2 t) (iblk m c 3 t) k0_pay4 k0_pay5
    ∧ (outsAt0 m c t.val t.isLt).2.2.2 = newAcc (iblk m c 0 t) (iblk m c 1 t) (iblk m c 2 t) (iblk m c 3 t) (iblk m c 4 t) k0_pay4 k0_pay6 :=
  ⟨first_max m c t h0 h1, first_norm m c t h0 h1, first_acc m c t h0 h1⟩

/-- A middle slot block: the carried triple is the update of what the previous point left. -/
theorem comp_mid (t : Fin cfg0.N) (h0 : ¬t.val % 8 = 0) (h1 : ¬t.val % 8 = 7) :
    (outsAt0 m c t.val t.isLt).2.1 = newMax (iblk m c 0 t) (iblk m c 1 t) (iblk m c 2 t) (iblk m c 3 t) (prev m c t).2.1
    ∧ (outsAt0 m c t.val t.isLt).2.2.1 = newNorm (iblk m c 0 t) (iblk m c 1 t) (iblk m c 2 t) (iblk m c 3 t) (prev m c t).2.1 (prev m c t).2.2.1
    ∧ (outsAt0 m c t.val t.isLt).2.2.2 = newAcc (iblk m c 0 t) (iblk m c 1 t) (iblk m c 2 t) (iblk m c 3 t) (iblk m c 4 t) (prev m c t).2.1 (prev m c t).2.2.2 :=
  ⟨mid_max m c t h0 h1, mid_norm m c t h0 h1, mid_acc m c t h0 h1⟩

/-- The last slot block: the same updates, and the output block is the new numerators over the new normaliser. -/
theorem comp_last (t : Fin cfg0.N) (h0 : ¬t.val % 8 = 0) (h1 : t.val % 8 = 7) :
    (outsAt0 m c t.val t.isLt).2.1 = newMax (iblk m c 0 t) (iblk m c 1 t) (iblk m c 2 t) (iblk m c 3 t) (prev m c t).2.1
    ∧ (outsAt0 m c t.val t.isLt).2.2.1 = newNorm (iblk m c 0 t) (iblk m c 1 t) (iblk m c 2 t) (iblk m c 3 t) (prev m c t).2.1 (prev m c t).2.2.1
    ∧ (outsAt0 m c t.val t.isLt).2.2.2 = newAcc (iblk m c 0 t) (iblk m c 1 t) (iblk m c 2 t) (iblk m c 3 t) (iblk m c 4 t) (prev m c t).2.1 (prev m c t).2.2.2
    ∧ (outsAt0 m c t.val t.isLt).1 = k0_pay3 (newNorm (iblk m c 0 t) (iblk m c 1 t) (iblk m c 2 t) (iblk m c 3 t) (prev m c t).2.1 (prev m c t).2.2.1) (newAcc (iblk m c 0 t) (iblk m c 1 t) (iblk m c 2 t) (iblk m c 3 t) (iblk m c 4 t) (prev m c t).2.1 (prev m c t).2.2.2) :=
  ⟨last_max m c t h0 h1, last_norm m c t h0 h1, last_acc m c t h0 h1, last_out m c t h0 h1⟩

end Cert.KSide

end
-- ==== Proof.Spec.lean ====
/-
  The specification both programs are compared with.

  The five argument arrays are read by ROW-MAJOR POSITION (a reshape keeps every entry's position, so both programs'
  reshapes of an argument are this one reading): query keys and selections as 64 x 4096 matrices (channel, query
  position), memory keys as 64 x 8192 (channel, memory slot), the shrinkage as a vector over the 8192 slots and the
  memory values as 1024 x 8192 (value channel, slot).  Under the precondition every entry is a real number; the
  specification is stated on those reals.

  For a query position p and a slot n the score is
      s p n = ((2 Σ_c mk c n (qk c p qe c p)) - Σ_c (mk c n)² qe c p - Σ_c qe c p (qk c p)²) · ms n / 8,
  and the result at (v, p) is the softmax-weighted read-out
      (Σ_n mv v n · exp (s p n)) / Σ_n exp (s p n).
  Subtracting any real M from every score of a row changes neither numerator/denominator ratio, which is why no running
  maximum appears here.
-/
import Idealize.ShloMosaic.PureOps.Ideal
import Mathlib.Analysis.SpecialFunctions.Exp

noncomputable section

open scoped BigOperators

namespace Cert.Spec

open Idealize.ShloMosaic

/-- The entry of an array at a row-major position (zero past the end, which no use reaches). -/
def flat {s : Shape} (a : s.Idx → EReal) (k : ℕ) : EReal :=
  if h : k < s.numel then a (s.rowMajor.symm ⟨k, h⟩) else 0

/-- Reading at an index's own row-major position gives the entry at the index. -/
theorem flat_rowMajor {s : Shape} (a : s.Idx → EReal) (i : s.Idx) : flat a (s.rowMajor i).val = a i := by
  unfold flat
  rw [dif_pos (s.rowMajor i).isLt]
  exact congrArg a (s.rowMajor.symm_apply_apply i)

/-- A reshape read at an index is the operand at the index's row-major position. -/
theorem shapeCast_flat {s t : Shape} (x : s.Idx → EReal) (h : s.ShapeCasts t) (j : t.Idx) :
    shapeCast t x h j = flat x (t.rowMajor j).val := by
  unfold flat shapeCast
  rw [dif_pos (lt_of_lt_of_eq (t.rowMajor j).isLt h)]
  rfl

/-- Every entry of the array is a real number. -/
def Finite {s : Shape} (a : s.Idx → EReal) : Prop := ∀ i, ∃ r : ℝ, a i = (r : EReal)

/-- An array of reals read by position is a real: the entry's own value. -/
theorem flat_eq_coe {s : Shape} {a : s.Idx → EReal} (ha : Finite a) (k : ℕ) : flat a k = ((flat a k).toReal : EReal) := by
  unfold flat
  by_cases h : k < s.numel
  · rw [dif_pos h]; obtain ⟨r, hr⟩ := ha (s.rowMajor.symm ⟨k, h⟩); rw [hr]; rfl
  · rw [dif_neg h]; simp

abbrev SQ : Shape := ⟨4, ![1, 64, 64, 64]⟩
abbrev SK : Shape := ⟨5, ![1, 64, 2, 64, 64]⟩
abbrev SS : Shape := ⟨5, ![1, 1, 2, 64, 64]⟩
abbrev SV : Shape := ⟨6, ![1, 2, 512, 2, 64, 64]⟩
abbrev SO : Shape := ⟨5, ![1, 2, 512, 64, 64]⟩

variable (a0 a1 : SQ.Idx → EReal) (a2 : SK.Idx → EReal) (a3 : SS.Idx → EReal) (a4 : SV.Idx → EReal)

/-- Query key, channel c, query position p. -/
def qk (c p : ℕ) : ℝ := (flat a0 (c * 4096 + p)).toReal
/-- Query selection, channel c, query position p. -/
def qe (c p : ℕ) : ℝ := (flat a1 (c * 4096 + p)).toReal
/-- Memory key, channel c, slot n. -/
def mk (c n : ℕ) : ℝ := (flat a2 (c * 8192 + n)).toReal
/-- Shrinkage of slot n. -/
def ms (n : ℕ) : ℝ := (flat a3 n).toReal
/-- Memory value, value channel v, slot n. -/
def mv (v n : ℕ) : ℝ := (flat a4 (v * 8192 + n)).toReal

/-- The query-side row of the fused score product: 2·qk·qe on the first 64 columns, −qe on the last 64. -/
def qcat (p j : ℕ) : ℝ := if j < 64 then 2 * qk a0 j p * qe a1 j p else -(qe a1 (j - 64) p)
/-- The memory-side row of the fused score product: mk on the first 64 columns, mk² on the last 64. -/
def kcat (n j : ℕ) : ℝ := if j < 64 then mk a2 j n else mk a2 (j - 64) n * mk a2 (j - 64) n

/-- Σ_c qe·qk², the term of the squared distance that does not depend on the slot. -/
def bsq (p : ℕ) : ℝ := ∑ c : Fin 64, qe a1 c p * qk a0 c p * qk a0 c p

/-- The score of slot n for query position p. -/
def score (p n : ℕ) : ℝ :=
  ((2 * ∑ c : Fin 64, mk a2 c n * (qk a0 c p * qe a1 c p)) - (∑ c : Fin 64, (mk a2 c n * mk a2 c n) * qe a1 c p)
    - bsq a0 a1 p) * ms a3 n * (1 / 8)

/-- The softmax read-out of value channel v at query position p. -/
def readout (v p : ℕ) : ℝ :=
  (∑ n : Fin 8192, mv a4 v n * Real.exp (score a0 a1 a2 a3 p n)) / ∑ n : Fin 8192, Real.exp (score a0 a1 a2 a3 p n)

/-- The result array: at an index of row-major position k, the read-out at value channel k / 4096 and query position k % 4096. -/
def out : SO.Idx → EReal := fun j =>
  ((readout a0 a1 a2 a3 a4 ((SO.rowMajor j).val / 4096) ((SO.rowMajor j).val % 4096) : ℝ) : EReal)

end Cert.Spec

end
-- ==== Proof.Fused.lean ====
/-
  The fused score product is the reference's difference of two products.

  The kernel contracts 128 fused channels: on the first 64 the query side carries 2·qk·qe and the slot side mk, on
  the last 64 the query side carries −qe and the slot side mk².  Splitting the sum at 64 gives
  2 Σ_c mk (qk qe) − Σ_c mk² qe, the reference's two products, so the kernel's score is the specification's.
-/
import proofs.«121614_j13091060318871_2_alg».proof.Proof.Spec
import proofs.«121614_j13091060318871_2_alg».proof.Proof.RowInv

noncomputable section

open scoped BigOperators

namespace Cert.Spec

variable (a0 a1 : SQ.Idx → EReal) (a2 : SK.Idx → EReal) (a3 : SS.Idx → EReal)

/-- The sum over the 128 fused channels splits at 64 into the reference's two products. -/
theorem fused_sum (p n : ℕ) :
    ∑ k : Fin 128, qcat a0 a1 p k.val * kcat a2 n k.val
      = 2 * ∑ c : Fin 64, mk a2 c n * (qk a0 c p * qe a1 c p) - ∑ c : Fin 64, (mk a2 c n * mk a2 c n) * qe a1 c p := by
  have h : ∑ k : Fin 128, qcat a0 a1 p k.val * kcat a2 n k.val
      = ∑ i : Fin 64, qcat a0 a1 p (Fin.castAdd 64 i).val * kcat a2 n (Fin.castAdd 64 i).val
        + ∑ i : Fin 64, qcat a0 a1 p (Fin.natAdd 64 i).val * kcat a2 n (Fin.natAdd 64 i).val :=
    Fin.sum_univ_add (fun k : Fin (64 + 64) => qcat a0 a1 p k.val * kcat a2 n k.val)
  have e1 : ∀ i : Fin 64, qcat a0 a1 p (Fin.castAdd 64 i).val * kcat a2 n (Fin.castAdd 64 i).val
      = 2 * (mk a2 i n * (qk a0 i p * qe a1 i p)) := fun i => by
    simp only [qcat, kcat, Fin.coe_castAdd, if_pos i.isLt]; ring
  have e2 : ∀ i : Fin 64, qcat a0 a1 p (Fin.natAdd 64 i).val * kcat a2 n (Fin.natAdd 64 i).val
      = -((mk a2 i n * mk a2 i n) * qe a1 i p) := fun i => by
    have hn : ¬(64 + i.val < 64) := by omega
    simp only [qcat, kcat, Fin.coe_natAdd, if_neg hn, Nat.add_sub_cancel_left]; ring
  rw [h, Finset.sum_congr rfl fun i _ => e1 i, Finset.sum_congr rfl fun i _ => e2 i, ← Finset.mul_sum,
    Finset.sum_neg_distrib, sub_eq_add_neg]

/-- The kernel's score, on the extended reals, is the specification's score. -/
theorem score_coe (p n : ℕ) :
    ((∑ k : Fin 128, ((qcat a0 a1 p k.val : ℝ) : EReal) * ((kcat a2 n k.val : ℝ) : EReal)) - ((bsq a0 a1 p : ℝ) : EReal))
        * ((ms a3 n : ℝ) : EReal) * ((1 / 8 : ℝ) : EReal)
      = ((score a0 a1 a2 a3 p n : ℝ) : EReal) := by
  have e : score a0 a1 a2 a3 p n
      = ((∑ k : Fin 128, qcat a0 a1 p k.val * kcat a2 n k.val) - bsq a0 a1 p) * ms a3 n * (1 / 8) := by
    unfold score; rw [fused_sum]
  rw [e, EReal.coe_mul, EReal.coe_mul, EReal.coe_sub, Cert.RowInv.coe_sum]
  simp only [EReal.coe_mul]

end Cert.Spec

end
-- ==== Proof.KInv.lean ====
/-
  The carried buffers after every grid point, and the output blocks.

  Grid point n works on query block n / 8 and slot block n % 8.  By induction on n, after point n row r of the three
  carried buffers satisfies the row invariant of query position (n / 8)·1024 + r at (n % 8)·1024 + 1024 slots: a point
  with n % 8 = 0 starts it from the reset values, any other point extends the previous point's (same query block, since
  n % 8 ≠ 0) by its 1024 slots.  At a point with n % 8 = 7 all 8192 slots are in, and the output block it stores holds at
  (v, r) the read-out of value channel v at that query position.
-/
import proofs.«121614_j13091060318871_2_alg».proof.Proof.KRow
import proofs.«121614_j13091060318871_2_alg».proof.Proof.KComp
import proofs.«121614_j13091060318871_2_alg».proof.Proof.Fused

set_option maxRecDepth 16384

noncomputable section

open scoped BigOperators
open Idealize.ShloMosaic Idealize.ShloMosaic.ValueIdx Idealize.ShloMosaic.TcCoe

namespace Cert.KSide

open Cert.KernelIdeal Cert.KernelIdeal.Gen Cert.Spec

/-- The score at (r, j) when the entries it reads are known reals. -/
theorem scores_of_reals (x0 x2 : FVec Ideal S1024x128 .bf16) (x1 : FVec Ideal S1024x1 .f32) (x3 : FVec Ideal S1x1024 .f32)
    (r j : Fin 1024) (Q K : Fin 128 → ℝ) (bq hs : ℝ) (hq : ∀ k, x0 (ix2 r k) = ((Q k : ℝ) : EReal))
    (hk : ∀ k, x2 (ix2 j k) = ((K k : ℝ) : EReal)) (hb : x1 (ix2 r 0) = ((bq : ℝ) : EReal))
    (hsh : x3 (ix2 0 j) = ((hs : ℝ) : EReal)) :
    k0_pay7 (F := Ideal) x0 x2 x1 x3 (ix2 r j)
      = ((∑ k : Fin 128, ((Q k : ℝ) : EReal) * ((K k : ℝ) : EReal)) - ((bq : ℝ) : EReal)) * ((hs : ℝ) : EReal)
          * ((1 / 8 : ℝ) : EReal) := by
  have e : (∑ k : Fin 128, x0 (ix2 r k) * x2 (ix2 j k)) = ∑ k : Fin 128, ((Q k : ℝ) : EReal) * ((K k : ℝ) : EReal) :=
    Finset.sum_congr rfl fun k _ => by rw [hq k, hk k]
  rw [scores_apply, e, hb, hsh]

variable (m : (ℓ : Loc nD τ sig) → Buf (Elt Ideal) ℓ) (c : Dev nD)
variable (a0 a1 : SQ.Idx → EReal) (a2 : SK.Idx → EReal) (a3 : SS.Idx → EReal) (a4 : SV.Idx → EReal)

/-- What the five input blocks hold at every grid point: the fused query rows and the offsets of the point's query
    block, the fused slot rows, the shrinkage and the values of its slot block. -/
structure Blocks : Prop where
  q : ∀ (t : Fin cfg0.N) (r : Fin 1024) (j : Fin 128),
    iblk m c 0 t (ix2 r j) = ((qcat a0 a1 (t.val / 8 * 1024 + r.val) j.val : ℝ) : EReal)
  b : ∀ (t : Fin cfg0.N) (r : Fin 1024),
    iblk m c 1 t (ix2 r (0 : Fin 1)) = ((bsq a0 a1 (t.val / 8 * 1024 + r.val) : ℝ) : EReal)
  k : ∀ (t : Fin cfg0.N) (r : Fin 1024) (j : Fin 128),
    iblk m c 2 t (ix2 r j) = ((kcat a2 (t.val % 8 * 1024 + r.val) j.val : ℝ) : EReal)
  s : ∀ (t : Fin cfg0.N) (r : Fin 1024),
    iblk m c 3 t (ix2 (0 : Fin 1) r) = ((ms a3 (t.val % 8 * 1024 + r.val) : ℝ) : EReal)
  v : ∀ (t : Fin cfg0.N) (v r : Fin 1024),
    iblk m c 4 t (ix2 v r) = ((mv a4 v.val (t.val % 8 * 1024 + r.val) : ℝ) : EReal)

variable (hB : Blocks m c a0 a1 a2 a3 a4)
include hB

/-- The score the point computes at (row r, column j) is the specification's score of the point's query position and slot. -/
theorem score_at (t : Fin cfg0.N) (r j : Fin 1024) :
    k0_pay7 (F := Ideal) (iblk m c 0 t) (iblk m c 2 t) (iblk m c 1 t) (iblk m c 3 t) (ix2 r j)
      = ((score a0 a1 a2 a3 (t.val / 8 * 1024 + r.val) (t.val % 8 * 1024 + j.val) : ℝ) : EReal) := by
  exact (scores_of_reals (iblk m c 0 t) (iblk m c 2 t) (iblk m c 1 t) (iblk m c 3 t) r j
      (fun k => qcat a0 a1 (t.val / 8 * 1024 + r.val) k.val) (fun k => kcat a2 (t.val % 8 * 1024 + j.val) k.val) _ _
      (fun k => hB.q t r k) (fun k => hB.k t j k) (hB.b t r) (hB.s t j)).trans (score_coe a0 a1 a2 a3 _ _)

/-- The row invariant after grid point n. -/
def RowOK (n : ℕ) (hn : n < cfg0.N) : Prop :=
  ∀ r : Fin 1024,
    RowInv.Holds (fun k => score a0 a1 a2 a3 (n / 8 * 1024 + r.val) k) (fun (v : Fin 1024) k => mv a4 v.val k)
      (n % 8 * 1024 + 1024)
      ((outsAt0 m c n hn).2.1 (ix2 r 0)) ((outsAt0 m c n hn).2.2.1 (ix2 r 0))
      (fun v => (outsAt0 m c n hn).2.2.2 (ix2 v r))

/-- A point on the first slot block starts the invariant. -/
theorem rowOK_first (t : Fin cfg0.N) (h0 : t.val % 8 = 0) : RowOK m c a0 a1 a2 a3 a4 t.val t.isLt := fun r => by
  have h1 : ¬t.val % 8 = 7 := by omega
  obtain ⟨e1, e2, e3⟩ := comp_first m c t h0 h1
  have hs : t.val % 8 * 1024 = 0 := by rw [h0]
  rw [e1, e2, e3, hs, Nat.zero_add]
  refine holds_first _ _ _ _ _ _ _ r (fun j => ?_) (fun v j => ?_)
  · have := score_at m c a0 a1 a2 a3 a4 hB t r j
    rw [hs, Nat.zero_add] at this
    exact this
  · have := hB.v t v j
    rw [hs, Nat.zero_add] at this
    exact this

/-- A point on a later slot block extends the previous point's invariant. -/
theorem rowOK_next (n : ℕ) (hn : n + 1 < cfg0.N) (h0 : ¬(n + 1) % 8 = 0)
    (ih : RowOK m c a0 a1 a2 a3 a4 n (Nat.lt_of_succ_lt hn)) : RowOK m c a0 a1 a2 a3 a4 (n + 1) hn := fun r => by
  have hq : n / 8 = (n + 1) / 8 := by omega
  have ha : n % 8 * 1024 + 1024 = (n + 1) % 8 * 1024 := by omega
  have ih' := ih r
  rw [hq, ha] at ih'
  have hcomp := (by
    by_cases h1 : (n + 1) % 8 = 7
    · exact ⟨(comp_last m c ⟨n + 1, hn⟩ h0 h1).1, (comp_last m c ⟨n + 1, hn⟩ h0 h1).2.1, (comp_last m c ⟨n + 1, hn⟩ h0 h1).2.2.1⟩
    · exact comp_mid m c ⟨n + 1, hn⟩ h0 h1 :
    (outsAt0 m c (n + 1) hn).2.1 = newMax (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1
    ∧ (outsAt0 m c (n + 1) hn).2.2.1 = newNorm (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1
    ∧ (outsAt0 m c (n + 1) hn).2.2.2 = newAcc (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 m c n (Nat.lt_of_succ_lt hn)).2.1 (outsAt0 m c n (Nat.lt_of_succ_lt hn)).2.2.2)
  obtain ⟨e1, e2, e3⟩ := hcomp
  rw [e1, e2, e3]
  exact holds_step _ _ _ _ _ _ _ r _ _ _ ((n + 1) % 8 * 1024) ih'
    (fun j => score_at m c a0 a1 a2 a3 a4 hB ⟨n + 1, hn⟩ r j) (fun v j => hB.v ⟨n + 1, hn⟩ v j)

/-- The invariant holds after every grid point. -/
theorem rowOK : ∀ (n : ℕ) (hn : n < cfg0.N), RowOK m c a0 a1 a2 a3 a4 n hn
  | 0, hn => rowOK_first m c a0 a1 a2 a3 a4 hB ⟨0, hn⟩ rfl
  | n + 1, hn => by
    by_cases h0 : (n + 1) % 8 = 0
    · exact rowOK_first m c a0 a1 a2 a3 a4 hB ⟨n + 1, hn⟩ h0
    · exact rowOK_next m c a0 a1 a2 a3 a4 hB n hn h0 (rowOK n (Nat.lt_of_succ_lt hn))

/-- The output block a point on the last slot block stores: the read-out of each value channel at each of its query positions. -/
theorem out_readout (t : Fin cfg0.N) (h7 : t.val % 8 = 7) (v r : Fin 1024) :
    (outsAt0 m c t.val t.isLt).1 (ix2 v r)
      = ((readout a0 a1 a2 a3 a4 v.val (t.val / 8 * 1024 + r.val) : ℝ) : EReal) := by
  have h0 : ¬t.val % 8 = 0 := by omega
  obtain ⟨_, e2, e3, e4⟩ := comp_last m c t h0 h7
  have hok := rowOK m c a0 a1 a2 a3 a4 hB t.val t.isLt r
  rw [show t.val % 8 * 1024 + 1024 = 8192 by omega] at hok
  rw [e4, ← e2, ← e3]
  exact holds_final _ _ r _ _ _ hok v

end Cert.KSide

end
-- ==== Proof.KArgsDefs.lean ====
/-
  The arrays the kernel's windows range over, as functions of the five arguments, read entry by entry.

  Before the grid starts the program rearranges its arguments: each is reshaped to a matrix (the same entries at the
  same row-major positions), the query keys, query selections and memory keys are transposed so that rows are
  positions and columns channels, and from them it forms
    * the fused query matrix: on columns 0..63 twice the key times the selection, on columns 64..127 minus the selection;
    * the fused memory matrix: on columns 0..63 the memory key, on columns 64..127 its square;
    * for every query position the sum over the channels of selection times key squared, as a one-column matrix;
    * the shrinkage as a one-row matrix and the memory values as a 1024 x 8192 matrix.
  Narrowing a matrix to a shorter float format is the identity on extended reals.  When every argument entry is a real
  number, each entry of these five arrays is the coercion of the corresponding real of the specification
  (Spec.lean: qcat, bsq, kcat, ms, mv).
-/
import proofs.«121614_j13091060318871_2_alg».proof.Proof.Gen.KernelIdeal
import proofs.«121614_j13091060318871_2_alg».proof.Proof.Spec
import Idealize.ShloMosaic.Lib.IdealHost
import Idealize.ShloMosaic.Lib.Pipeline.Value
import proofs.«121614_j13091060318871_2_alg».proof.Proof.Consts

noncomputable section

open scoped BigOperators

namespace Cert.KSide

open Idealize.ShloMosaic Idealize.ShloMosaic.ValueIdx
open Cert.KernelIdeal Cert.Spec

/-- A 64 x 4096 reading of a query-side argument, transposed: rows are query positions, columns channels. -/
def qT (x : FVec Ideal S1x64x64x64 .f32) : FVec Ideal S4096x64 .f32 :=
  transpose S4096x64 [1, 0] (shapeCast S64x4096 x Gen.shapeCasts_S1x64x64x64_S64x4096) Gen.transposes_S64x4096_S4096x64_1_0

/-- The 64 x 8192 reading of the memory keys, transposed: rows are slots, columns channels. -/
def kT (x : FVec Ideal S1x64x2x64x64 .f32) : FVec Ideal S8192x64 .f32 :=
  transpose S8192x64 [1, 0] (shapeCast S64x8192 x Gen.shapeCasts_S1x64x2x64x64_S64x8192) Gen.transposes_S64x8192_S8192x64_1_0

/-- The fused query matrix as the program builds it. -/
def hQ (a0 a1 : FVec Ideal S1x64x64x64 .f32) : FVec Ideal S4096x128 .bf16 :=
  truncf .bf16 (concatenate S4096x128 1
    [⟨S4096x64, mulf (mulf (broadcastInDim S4096x64 ![] Gen.bcast_S_S4096x64 (constant (F := Ideal) S_ .f32 0x40000000#32)) (qT a0)) (qT a1)⟩,
     ⟨S4096x64, Host.negf (qT a1)⟩] Gen.concatenates_S4096x64_S4096x64_S4096x128_d1) Gen.bitsLt_bf16_f32

/-- The fused memory matrix as the program builds it. -/
def hK (a2 : FVec Ideal S1x64x2x64x64 .f32) : FVec Ideal S8192x128 .bf16 :=
  truncf .bf16 (concatenate S8192x128 1
    [⟨S8192x64, kT a2⟩, ⟨S8192x64, mulf (kT a2) (kT a2)⟩] Gen.concatenates_S8192x64_S8192x64_S8192x128_d1) Gen.bitsLt_bf16_f32

/-- The per-position sum over the channels of selection times key squared, as a one-column matrix. -/
def hB (a0 a1 : FVec Ideal S1x64x64x64 .f32) : FVec Ideal S4096x1 .f32 :=
  broadcastInDim S4096x1 ![0] Gen.bcast_S4096_S4096x1_0
    (Host.reduceAdd (F := Ideal) (mulf (mulf (qT a1) (qT a0)) (qT a0)) (constant (F := Ideal) S_ .f32 0x00000000#32)
      Gen.reducesTo_S4096x64_S4096_d1 Gen.h_S_)

/-- The shrinkage as a one-row matrix. -/
def hS (a3 : FVec Ideal S1x1x2x64x64 .f32) : FVec Ideal S1x8192 .f32 :=
  shapeCast S1x8192 a3 Gen.shapeCasts_S1x1x2x64x64_S1x8192

/-- The memory values as a 1024 x 8192 matrix. -/
def hV (a4 : FVec Ideal S1x2x512x2x64x64 .f32) : FVec Ideal S1024x8192 .bf16 :=
  truncf .bf16 (shapeCast S1024x8192 a4 Gen.shapeCasts_S1x2x512x2x64x64_S1024x8192) Gen.bitsLt_bf16_f32

/-! ## Sums of coercions -/

/-- A finite sum of reals, coerced, is the sum of the coercions. -/
theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-! ## The transposed readings at an entry -/

theorem qT_at (x : FVec Ideal S1x64x64x64 .f32) (p : Fin 4096) (k : Fin 64) :
    qT x (ix2 p k) = flat x (k.val * 4096 + p.val) := by
  unfold qT
  refine (transpose_apply [1, 0] _ Gen.transposes_S64x4096_S4096x64_1_0 (ix2 p k) (ix2 k p) ?_).trans ?_
  · intro b; fin_cases b <;> rfl
  rw [Cert.Spec.shapeCast_flat, Shape.rowMajor_val_two]
  rfl

theorem kT_at (x : FVec Ideal S1x64x2x64x64 .f32) (n : Fin 8192) (k : Fin 64) :
    kT x (ix2 n k) = flat x (k.val * 8192 + n.val) := by
  unfold kT
  refine (transpose_apply [1, 0] _ Gen.transposes_S64x8192_S8192x64_1_0 (ix2 n k) (ix2 k n) ?_).trans ?_
  · intro b; fin_cases b <;> rfl
  rw [Cert.Spec.shapeCast_flat, Shape.rowMajor_val_two]
  rfl

variable {a0 a1 : FVec Ideal S1x64x64x64 .f32} {a2 : FVec Ideal S1x64x2x64x64 .f32}
  {a3 : FVec Ideal S1x1x2x64x64 .f32} {a4 : FVec Ideal S1x2x512x2x64x64 .f32}

theorem qT_qk (h0 : Finite a0) (p : Fin 4096) (k : Fin 64) : qT a0 (ix2 p k) = ((qk a0 k.val p.val : ℝ) : EReal) := by
  rw [qT_at, flat_eq_coe h0]; rfl

theorem qT_qe (h1 : Finite a1) (p : Fin 4096) (k : Fin 64) : qT a1 (ix2 p k) = ((qe a1 k.val p.val : ℝ) : EReal) := by
  rw [qT_at, flat_eq_coe h1]; rfl

theorem kT_mk (h2 : Finite a2) (n : Fin 8192) (k : Fin 64) : kT a2 (ix2 n k) = ((mk a2 k.val n.val : ℝ) : EReal) := by
  rw [kT_at, flat_eq_coe h2]; rfl

/-! ## The five arrays at an entry -/

/-- The fused query matrix: row p, column j is the real `qcat p j`. -/
theorem hQ_at (h0 : Finite a0) (h1 : Finite a1) (p : Fin 4096) (j : Fin 128) :
    hQ a0 a1 (ix2 p j) = ((qcat a0 a1 p.val j.val : ℝ) : EReal) := by
  unfold hQ qcat
  rw [truncf_apply]
  by_cases hj : j.val < 64
  · rw [if_pos hj]
    refine (concatenate_pair_apply_left (t := S4096x128) (s₁ := S4096x64) (s₂ := S4096x64) 1 _ _ Gen.concatenates_S4096x64_S4096x64_S4096x128_d1 (ix2 p j) rfl
      (ix2 p (⟨j.val, hj⟩ : Fin 64)) ?_).trans ?_
    · intro b; fin_cases b <;> rfl
    rw [mulf_apply, mulf_apply, broadcastInDim_scalar_apply, constant_apply, Cert.Consts.ofBits_two, qT_qk h0, qT_qe h1,
      ← EReal.coe_mul, ← EReal.coe_mul]
  · rw [if_neg hj]
    refine (concatenate_pair_apply_right (t := S4096x128) (s₁ := S4096x64) (s₂ := S4096x64) 1 _ _ Gen.concatenates_S4096x64_S4096x64_S4096x128_d1 (ix2 p j) rfl rfl
      (ix2 p (⟨j.val - 64, by omega⟩ : Fin 64)) ?_ ?_).trans ?_
    · intro b hb; fin_cases b
      · rfl
      · exact absurd rfl hb
    · show (j.val - 64) + 64 = j.val; omega
    show -(qT a1 (ix2 p (⟨j.val - 64, _⟩ : Fin 64))) = _
    rw [qT_qe h1, ← EReal.coe_neg]

/-- The fused memory matrix: row n, column j is the real `kcat n j`. -/
theorem hK_at (h2 : Finite a2) (n : Fin 8192) (j : Fin 128) :
    hK a2 (ix2 n j) = ((kcat a2 n.val j.val : ℝ) : EReal) := by
  unfold hK kcat
  rw [truncf_apply]
  by_cases hj : j.val < 64
  · rw [if_pos hj]
    refine (concatenate_pair_apply_left (t := S8192x128) (s₁ := S8192x64) (s₂ := S8192x64) 1 _ _ Gen.concatenates_S8192x64_S8192x64_S8192x128_d1 (ix2 n j) rfl
      (ix2 n (⟨j.val, hj⟩ : Fin 64)) ?_).trans ?_
    · intro b; fin_cases b <;> rfl
    rw [kT_mk h2]
  · rw [if_neg hj]
    refine (concatenate_pair_apply_right (t := S8192x128) (s₁ := S8192x64) (s₂ := S8192x64) 1 _ _ Gen.concatenates_S8192x64_S8192x64_S8192x128_d1 (ix2 n j) rfl rfl
      (ix2 n (⟨j.val - 64, by omega⟩ : Fin 64)) ?_ ?_).trans ?_
    · intro b hb; fin_cases b
      · rfl
      · exact absurd rfl hb
    · show (j.val - 64) + 64 = j.val; omega
    rw [mulf_apply, kT_mk h2, ← EReal.coe_mul]

/-- The index a sum over the channels inserts into a position: (position, channel). -/
theorem lift_eq (h : S4096x64.Reduces [1] S4096) (p : Fin 4096) (k : Fin 64) : h.lift (ix1 p) k = ix2 p k := by
  funext a; apply Fin.ext
  match a with
  | ⟨0, _⟩ => rfl
  | ⟨1, _⟩ => rfl

/-- The one-column matrix of channel sums: row p is the real `bsq p`. -/
theorem hB_at (h0 : Finite a0) (h1 : Finite a1) (p : Fin 4096) :
    hB a0 a1 (ix2 p (0 : Fin 1)) = ((bsq a0 a1 p.val : ℝ) : EReal) := by
  unfold hB bsq
  refine (broadcastInDim_apply ![0] Gen.bcast_S4096_S4096x1_0 _ (ix2 p (0 : Fin 1)) (ix1 p) ?_).trans ?_
  · intro a; fin_cases a
    exact (if_neg (by decide)).symm
  have hR : S4096x64.Reduces [1] S4096 := by decide
  rw [hostReduceAdd_apply, Ideal.hostReduceAdd_single Gen.reducesTo_S4096x64_S4096_d1 hR, constant_apply,
    Ideal.ofBits_zero_f32, zero_add, coe_sum]
  refine Finset.sum_congr (s₂ := (Finset.univ : Finset (Fin 64))) rfl (fun (k : Fin 64) _ => ?_)
  rw [lift_eq hR p k, mulf_apply, mulf_apply, qT_qe h1, qT_qk h0, ← EReal.coe_mul, ← EReal.coe_mul]

/-- The shrinkage row: column n is the real `ms n`. -/
theorem hS_at (h3 : Finite a3) (n : Fin 8192) : hS a3 (ix2 (0 : Fin 1) n) = ((ms a3 n.val : ℝ) : EReal) := by
  unfold hS ms
  rw [Cert.Spec.shapeCast_flat, Shape.rowMajor_val_two, flat_eq_coe h3]
  show ((flat a3 (0 * 8192 + n.val)).toReal : EReal) = _
  rw [Nat.zero_mul, Nat.zero_add]

/-- The memory values: row v, column n is the real `mv v n`. -/
theorem hV_at (h4 : Finite a4) (v : Fin 1024) (n : Fin 8192) :
    hV a4 (ix2 v n) = ((mv a4 v.val n.val : ℝ) : EReal) := by
  unfold hV mv
  rw [truncf_apply, Cert.Spec.shapeCast_flat, Shape.rowMajor_val_two, flat_eq_coe h4]
  rfl

end Cert.KSide

end
-- ==== Proof.KArgsHost.lean ====
/-
  What the kernel's five input windows range over when the grid starts: the arrays the program has computed from its
  arguments by then are exactly the five functions of the arguments named in KArgsDefs.lean (the fused query matrix,
  the per-position channel sums, the fused memory matrix, the shrinkage row, the memory values).  Each equation is the
  composition of the program's own operations, read off in order.
-/
import proofs.«121614_j13091060318871_2_alg».proof.Proof.Gen.KernelIdeal.Frame
import proofs.«121614_j13091060318871_2_alg».proof.Proof.KArgsDefs

noncomputable section

namespace Cert.KSide

open Idealize.ShloMosaic Idealize.ShloMosaic.ValueIdx Idealize.ShloMosaic.TcCoe
open Cert.KernelIdeal Cert.Spec

variable (m : (ℓ : Loc nD τ sig) → Buf (Elt Ideal) ℓ) (c : Dev nD)

/-- Window 0's array is the fused query matrix of the first two arguments. -/
theorem V13_eq : (Gen.V m c main_v13 : FVec Ideal S4096x128 .bf16)
    = hQ (m ((c : Thread nD τ).loc main_arg0)) (m ((c : Thread nD τ).loc main_arg1)) := by
  show StableHlo.after Gen.hostOps0 (fun b => m (c, b)) (Proc.devRef .tc main_v13) = _
  after_results
  rfl

/-- Window 1's array is the one-column matrix of channel sums of the first two arguments. -/
theorem V20_eq : (Gen.V m c main_v20 : FVec Ideal S4096x1 .f32)
    = hB (m ((c : Thread nD τ).loc main_arg0)) (m ((c : Thread nD τ).loc main_arg1)) := by
  show StableHlo.after Gen.hostOps0 (fun b => m (c, b)) (Proc.devRef .tc main_v20) = _
  after_results
  rfl

/-- Window 2's array is the fused memory matrix of the third argument. -/
theorem V16_eq : (Gen.V m c main_v16 : FVec Ideal S8192x128 .bf16)
    = hK (m ((c : Thread nD τ).loc main_arg2)) := by
  show StableHlo.after Gen.hostOps0 (fun b => m (c, b)) (Proc.devRef .tc main_v16) = _
  after_results
  rfl

/-- Window 3's array is the fourth argument as a one-row matrix. -/
theorem V3_eq : (Gen.V m c main_v3 : FVec Ideal S1x8192 .f32)
    = hS (m ((c : Thread nD τ).loc main_arg3)) := by
  show StableHlo.after Gen.hostOps0 (fun b => m (c, b)) (Proc.devRef .tc main_v3) = _
  after_results
  rfl

/-- Window 4's array is the fifth argument as a 1024 x 8192 matrix. -/
theorem V21_eq : (Gen.V m c main_v21 : FVec Ideal S1024x8192 .bf16)
    = hV (m ((c : Thread nD τ).loc main_arg4)) := by
  show StableHlo.after Gen.hostOps0 (fun b => m (c, b)) (Proc.devRef .tc main_v21) = _
  after_results
  rfl

end Cert.KSide

end
-- ==== Proof.KArgsBlocks.lean ====
/-
  The blocks the kernel body loads, entry by entry, as reals of the specification.

  Grid point t works on query block t / 8 and slot block t % 8.  A window's block at t is the part of the window's
  array that starts, on each axis, at the block index times the block size; so the entry (r, j) of a block is the
  array's entry (block index * rows + r, j) (or (v, block index * columns + r) for the windows cut along columns).
  With the arrays read entry by entry (KArgsDefs.lean, KArgsHost.lean) every loaded entry is the coercion of a real:
  the fused query row of position (t / 8) * 1024 + r, its channel sum, the fused memory row of slot
  (t % 8) * 1024 + r, that slot's shrinkage and its memory values.
-/
import proofs.«121614_j13091060318871_2_alg».proof.Proof.Gen.KernelIdeal.Frame
import proofs.«121614_j13091060318871_2_alg».proof.Proof.KArgsHost

noncomputable section

namespace Cert.KSide

open Idealize.ShloMosaic Idealize.ShloMosaic.ValueIdx Idealize.ShloMosaic.TcCoe
open Cert.KernelIdeal Cert.Spec

/-- The block indices of the five input windows at every grid point: the query-side windows move with t / 8 along
    rows, the memory-side ones with t % 8 (along rows for the fused memory matrix, along columns for the shrinkage and
    the values); every other block index is 0. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = t.val % 8 :=
  (by decide +kernel : ∀ t : Fin grid0.N, _)

/-- A grid point's number is below 32. -/
theorem t_lt (t : Fin cfg0.N) : t.val < 32 := lt_of_lt_of_eq t.isLt Gen.N_0

variable (m : (ℓ : Loc nD τ sig) → Buf (Elt Ideal) ℓ) (c : Dev nD)

/-- Window 0's block at t, entry (r, j), is the array's entry ((t / 8) * 1024 + r, j). -/
theorem blk0 (t : Fin cfg0.N) (r : Fin 1024) (j : Fin 128) :
    Gen.iblk m c 0 t (ix2 r j)
      = (Gen.V m c main_v13 : FVec Ideal S4096x128 .bf16) (ix2 (⟨t.val / 8 * 1024 + r.val, by have := t_lt t; omega⟩ : Fin 4096) j) := by
  show Gen.V m c main_v13 (((cfg0.win 0).blk t).view.emb (ix2 r j)) = Gen.V m c main_v13 _
  refine congrArg _ (funext fun a => Fin.ext ?_)
  obtain ⟨e0, e1, -⟩ := idx_facts t
  match a with
  | ⟨0, _⟩ => show win0_0.index t (0 : Fin 2) * 1024 + 1 * r.val = t.val / 8 * 1024 + r.val; omega
  | ⟨1, _⟩ => show win0_0.index t (1 : Fin 2) * 128 + 1 * j.val = j.val; omega

/-- Window 1's block at t, entry (r, 0), is the array's entry ((t / 8) * 1024 + r, 0). -/
theorem blk1 (t : Fin cfg0.N) (r : Fin 1024) :
    Gen.iblk m c 1 t (ix2 r (0 : Fin 1))
      = (Gen.V m c main_v20 : FVec Ideal S4096x1 .f32) (ix2 (⟨t.val / 8 * 1024 + r.val, by have := t_lt t; omega⟩ : Fin 4096) (0 : Fin 1)) := by
  show Gen.V m c main_v20 (((cfg0.win 1).blk t).view.emb (ix2 r (0 : Fin 1))) = Gen.V m c main_v20 _
  refine congrArg _ (funext fun a => Fin.ext ?_)
  obtain ⟨-, -, e0, e1, -⟩ := idx_facts t
  match a with
  | ⟨0, _⟩ => show win0_1.index t (0 : Fin 2) * 1024 + 1 * r.val = t.val / 8 * 1024 + r.val; omega
  | ⟨1, _⟩ => show win0_1.index t (1 : Fin 2) * 1 + 1 * 0 = 0; omega

/-- Window 2's block at t, entry (r, j), is the array's entry ((t % 8) * 1024 + r, j). -/
theorem blk2 (t : Fin cfg0.N) (r : Fin 1024) (j : Fin 128) :
    Gen.iblk m c 2 t (ix2 r j)
      = (Gen.V m c main_v16 : FVec Ideal S8192x128 .bf16) (ix2 (⟨t.val % 8 * 1024 + r.val, by omega⟩ : Fin 8192) j) := by
  show Gen.V m c main_v16 (((cfg0.win 2).blk t).view.emb (ix2 r j)) = Gen.V m c main_v16 _
  refine congrArg _ (funext fun a => Fin.ext ?_)
  obtain ⟨-, -, -, -, e0, e1, -⟩ := idx_facts t
  match a with
  | ⟨0, _⟩ => show win0_2.index t (0 : Fin 2) * 1024 + 1 * r.val = t.val % 8 * 1024 + r.val; omega
  | ⟨1, _⟩ => show win0_2.index t (1 : Fin 2) * 128 + 1 * j.val = j.val; omega

/-- Window 3's block at t, entry (0, r), is the array's entry (0, (t % 8) * 1024 + r). -/
theorem blk3 (t : Fin cfg0.N) (r : Fin 1024) :
    Gen.iblk m c 3 t (ix2 (0 : Fin 1) r)
      = (Gen.V m c main_v3 : FVec Ideal S1x8192 .f32) (ix2 (0 : Fin 1) (⟨t.val % 8 * 1024 + r.val, by omega⟩ : Fin 8192)) := by
  show Gen.V m c main_v3 (((cfg0.win 3).blk t).view.emb (ix2 (0 : Fin 1) r)) = Gen.V m c main_v3 _
  refine congrArg _ (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 1024 + 1 * r.val = t.val % 8 * 1024 + r.val; omega

/-- Window 4's block at t, entry (v, r), is the array's entry (v, (t % 8) * 1024 + r). -/
theorem blk4 (t : Fin cfg0.N) (v r : Fin 1024) :
    Gen.iblk m c 4 t (ix2 v r)
      = (Gen.V m c main_v21 : FVec Ideal S1024x8192 .bf16) (ix2 v (⟨t.val % 8 * 1024 + r.val, by omega⟩ : Fin 8192)) := by
  show Gen.V m c main_v21 (((cfg0.win 4).blk t).view.emb (ix2 v r)) = Gen.V m c main_v21 _
  refine congrArg _ (funext fun a => Fin.ext ?_)
  obtain ⟨-, -, -, -, -, -, -, -, e0, e1⟩ := idx_facts t
  match a with
  | ⟨0, _⟩ => show win0_4.index t (0 : Fin 2) * 1024 + 1 * v.val = v.val; omega
  | ⟨1, _⟩ => show win0_4.index t (1 : Fin 2) * 1024 + 1 * r.val = t.val % 8 * 1024 + r.val; omega

/-! ## The loaded blocks as reals of the specification -/

section Reals

variable (h0 : Finite (m ((c.tc : Thread nD τ).loc main_arg0))) (h1 : Finite (m ((c.tc : Thread nD τ).loc main_arg1)))
  (h2 : Finite (m ((c.tc : Thread nD τ).loc main_arg2))) (h3 : Finite (m ((c.tc : Thread nD τ).loc main_arg3)))
  (h4 : Finite (m ((c.tc : Thread nD τ).loc main_arg4)))

include h0 h1 h2 h3 h4

/-- The fused query block: entry (r, j) is `qcat` at query position (t / 8) * 1024 + r, column j. -/
theorem B0 (t : Fin cfg0.N) (r : Fin 1024) (j : Fin 128) :
    Gen.iblk m c 0 t (ix2 r j)
      = ((qcat (m ((c.tc : Thread nD τ).loc main_arg0)) (m ((c.tc : Thread nD τ).loc main_arg1)) (t.val / 8 * 1024 + r.val) j.val : ℝ) : EReal) := by
  rw [blk0, V13_eq]
  exact hQ_at h0 h1 _ j

/-- The channel-sum block: entry (r, 0) is `bsq` at query position (t / 8) * 1024 + r. -/
theorem B1 (t : Fin cfg0.N) (r : Fin 1024) :
    Gen.iblk m c 1 t (ix2 r (0 : Fin 1))
      = ((bsq (m ((c.tc : Thread nD τ).loc main_arg0)) (m ((c.tc : Thread nD τ).loc main_arg1)) (t.val / 8 * 1024 + r.val) : ℝ) : EReal) := by
  rw [blk1, V20_eq]
  exact hB_at h0 h1 _

/-- The fused memory block: entry (r, j) is `kcat` at slot (t % 8) * 1024 + r, column j. -/
theorem B2 (t : Fin cfg0.N) (r : Fin 1024) (j : Fin 128) :
    Gen.iblk m c 2 t (ix2 r j)
      = ((kcat (m ((c.tc : Thread nD τ).loc main_arg2)) (t.val % 8 * 1024 + r.val) j.val : ℝ) : EReal) := by
  rw [blk2, V16_eq]
  exact hK_at h2 _ j

/-- The shrinkage block: entry (0, r) is `ms` at slot (t % 8) * 1024 + r. -/
theorem B3 (t : Fin cfg0.N) (r : Fin 1024) :
    Gen.iblk m c 3 t (ix2 (0 : Fin 1) r)
      = ((ms (m ((c.tc : Thread nD τ).loc main_arg3)) (t.val % 8 * 1024 + r.val) : ℝ) : EReal) := by
  rw [blk3, V3_eq]
  exact hS_at h3 _

/-- The memory-value block: entry (v, r) is `mv` at value channel v, slot (t % 8) * 1024 + r. -/
theorem B4 (t : Fin cfg0.N) (v r : Fin 1024) :
    Gen.iblk m c 4 t (ix2 v r)
      = ((mv (m ((c.tc : Thread nD τ).loc main_arg4)) v.val (t.val % 8 * 1024 + r.val) : ℝ) : EReal) := by
  rw [blk4, V21_eq]
  exact hV_at h4 v _

end Reals

end Cert.KSide

end
-- ==== Proof.KArgsFin.lean ====
/-
  Under the precondition every entry of the five argument arrays is a real number.

  The precondition says, for each argument, that the conjunction over all entries of "the absolute value is below
  plus infinity" is true.  A conjunction that is true is true at every entry, and an extended real x with
  max x (-x) below plus infinity is neither infinity, hence the coercion of a real.
-/
import proofs.«121614_j13091060318871_2_alg».proof.Defs
import proofs.«121614_j13091060318871_2_alg».proof.Proof.Gen.Pre_finite_inputs
import proofs.«121614_j13091060318871_2_alg».proof.Proof.Spec
import Idealize.ShloMosaic.Lib.ReduceAll
import Idealize.ShloMosaic.Lib.ValueIdx
import Idealize.ShloMosaic.PureOps.Ideal.Laws
import proofs.«121614_j13091060318871_2_alg».proof.Proof.Consts

noncomputable section

namespace Cert.KSide

open Idealize.ShloMosaic Idealize.ShloMosaic.ValueIdx Idealize.ShloMosaic.TcCoe
open Cert.Spec

/-- The scalar shape has one index. -/
instance : Subsingleton (Cert.Pre_finite_inputs.S_.Idx) := ⟨fun a b => funext fun d => d.elim0⟩

/-- An extended real whose absolute value is below plus infinity is a real. -/
theorem real_of_abs_lt (x : EReal)
    (h : Ideal.cmp .olt (max x (-x)) (Ideal.ofBits .f32 0x7F800000#32) = 1#1) : ∃ r : ℝ, x = (r : EReal) := by
  rw [Cert.Consts.ofBits_pos_inf] at h
  induction x using EReal.rec with
  | bot => simp [Ideal.cmp] at h
  | coe r => exact ⟨r, rfl⟩
  | top => simp [Ideal.cmp] at h

/-- Under the precondition, on every device, each argument array consists of reals. -/
theorem fin_args (m : (ℓ : Loc Cert.KernelIdeal.nD Cert.KernelIdeal.τ Cert.KernelIdeal.sig) → Buf (Elt Ideal) ℓ)
    (h : Cert.Pre_KernelIdeal m) (c : Dev Cert.KernelIdeal.nD) :
    Finite (m ((c.tc : Thread Cert.KernelIdeal.nD Cert.KernelIdeal.τ).loc Cert.KernelIdeal.main_arg0))
    ∧ Finite (m ((c.tc : Thread Cert.KernelIdeal.nD Cert.KernelIdeal.τ).loc Cert.KernelIdeal.main_arg1))
    ∧ Finite (m ((c.tc : Thread Cert.KernelIdeal.nD Cert.KernelIdeal.τ).loc Cert.KernelIdeal.main_arg2))
    ∧ Finite (m ((c.tc : Thread Cert.KernelIdeal.nD Cert.KernelIdeal.τ).loc Cert.KernelIdeal.main_arg3))
    ∧ Finite (m ((c.tc : Thread Cert.KernelIdeal.nD Cert.KernelIdeal.τ).loc Cert.KernelIdeal.main_arg4)) := by
  have h1 := congrFun (h c) ValueIdx.ix0
  dsimp only [Cert.Pre_finite_inputs.fn, Cert.Pre_finite_inputs.fn_part1] at h1
  obtain ⟨h0123, e4⟩ := IntOp.andi_eq_one.1 h1
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i)⟩

end Cert.KSide

end
-- ==== Proof.KTailArr.lean ====
/-
  From the blocks the grid points write back to the whole result matrix of the call.

  The call's result is a 1024 x 4096 matrix: row = value channel, column = query position.  Its window is a
  1024 x 1024 block at block index (0, q), where q = t / 8 is the query block of grid point t; the block is written
  back only at the last slot block of each query block, that is at the points t with t % 8 = 7, and at the other points
  the window is idle.  Entry (v, r) of the block written at point t is entry (v, q * 1024 + r) of the matrix.  The four
  points 7, 15, 23, 31 write the four column blocks, which tile the matrix: column p lies in the block written at
  point 8 * (p / 1024) + 7.  So if each written block holds the softmax read-out at its own rows and columns, the
  whole matrix holds the read-out at every (value channel, query position).
-/
import proofs.«121614_j13091060318871_2_alg».proof.Proof.Gen.KernelIdeal.Frame
import proofs.«121614_j13091060318871_2_alg».proof.Proof.Spec
import Idealize.ShloMosaic.Lib.Pipeline.Value
import Idealize.ShloMosaic.Lib.ValueIdx

noncomputable section

namespace Cert.KSide

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The read-out as a 1024 x 4096 matrix over the argument arrays: entry (v, p) is the softmax read-out of value
    channel v at query position p. -/
def G (a0 a1 : Cert.Spec.SQ.Idx → EReal) (a2 : Cert.Spec.SK.Idx → EReal) (a3 : Cert.Spec.SS.Idx → EReal)
    (a4 : Cert.Spec.SV.Idx → EReal) : S1024x4096.Idx → EReal :=
  fun i => ((Cert.Spec.readout a0 a1 a2 a3 a4 (i 0).val (i 1).val : ℝ) : EReal)

/-- The result window's block index at grid point t: always 0 along the rows, the query block t / 8 along the columns. -/
theorem blockIndex : ∀ t : Fin cfg0.N, win0_5.index t (0 : Fin 2) = 0 ∧ win0_5.index t (1 : Fin 2) = t.val / 8 :=
  (by decide +kernel : ∀ t : Fin grid0.N, _)

/-- What a point t with t % 8 = 7 writes back is block (0, t / 8) of the read-out matrix, provided the window's staging
    buffer holds, at (v, r), the read-out of value channel v at query position (t / 8) * 1024 + r. -/
theorem written_eq (c : Dev nD) (t : Fin cfg0.N)
    (hfl : ∀ (v r : Fin 1024), (Gen.outsAt0 m c t.val t.isLt).1 (ValueIdx.ix2 v r)
      = ((Cert.Spec.readout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) v.val (t.val / 8 * 1024 + r.val) : ℝ) : EReal)) :
    (dats m 0 c).flushed 5 t = ((cfg0.win 5).blk t).view.read (Elt Ideal) (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show (cfg0.win 5).cut (grid0.coords t) ((dats m 0 c).after 5 t) = _
  rw [after0_5]
  refine funext fun (j : S1024x1024.Idx) => ?_
  obtain ⟨e0, e1⟩ := blockIndex t
  show (outsAt0 m c t.val t.isLt).1 j = G _ _ _ _ _ (((cfg0.win 5).blk t).view.emb j)
  obtain ⟨p, q, rfl⟩ : ∃ (p : Fin 1024) (q : Fin 1024), j = ValueIdx.ix2 p q := ⟨j 0, j 1, ValueIdx.eq_ix2 j⟩
  rw [hfl]
  unfold G
  -- a block entry's matrix coordinate is block index * block extent + the coordinate inside the block
  have h0 : ((((cfg0.win 5).blk t).view.emb (ValueIdx.ix2 p q)) 0).val = p.val := by
    show win0_5.index t (0 : Fin 2) * 1024 + 1 * p.val = _
    omega
  have h1 : ((((cfg0.win 5).blk t).view.emb (ValueIdx.ix2 p q)) 1).val = t.val / 8 * 1024 + q.val := by
    show win0_5.index t (1 : Fin 2) * 1024 + 1 * q.val = _
    omega
  rw [h0, h1]

/-- A matrix index lies in point t's block iff each coordinate lies in the block's range on its axis. -/
theorem mem_block (t : Fin cfg0.N) (i : S1024x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v22).slice (win0_5.rect t)).set ↔ _
  rw [View.set_slice_whole, Rect.mem_set_unit]
  exact Iff.rfl

/-- The written blocks tile the matrix: column p lies in the block written at point 8 * (p / 1024) + 7. -/
theorem covered (i : S1024x4096.Idx) : ∃ t : Fin cfg0.N, (cfg0.win 5).flush t = true ∧ i ∈ ((cfg0.win 5).blk t).view.set := by
  have hi0 : (i 0).val < 1024 := (i 0).isLt
  have hi1 : (i 1).val < 4096 := (i 1).isLt
  obtain ⟨t, ht⟩ : ∃ t : Fin cfg0.N, t.val = 8 * ((i 1).val / 1024) + 7 :=
    ⟨⟨8 * ((i 1).val / 1024) + 7, by show _ < grid0.N; rw [N_0]; omega⟩, rfl⟩
  refine ⟨t, (flush0_5 t).mpr (by omega), ?_⟩
  rw [mem_block]
  obtain ⟨e0, e1⟩ := blockIndex t
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The call's result matrix after the last grid point is the read-out matrix, if every written block holds the
    read-out at its own rows and columns. -/
theorem matrix_eq (c : Dev nD)
    (hfl : ∀ t : Fin cfg0.N, t.val % 8 = 7 → ∀ (v r : Fin 1024), (Gen.outsAt0 m c t.val t.isLt).1 (ValueIdx.ix2 v r)
      = ((Cert.Spec.readout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) v.val (t.val / 8 * 1024 + r.val) : ℝ) : EReal)) :
    (dats m 0 c).arrAt 5 cfg0.N = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 5 _ (fun t hf => written_eq m c t (hfl t ((flush0_5 t).mp hf))) covered

end Cert.KSide

end
-- ==== Proof.KTailHost.lean ====
/-
  The two lines of the program after the call.

  The call's 1024 x 4096 result matrix is reshaped to [2, 512, 64, 64] and then given a leading unit axis, which
  yields the program's result of shape [1, 2, 512, 64, 64].  Both lines keep every entry's row-major position, so the
  program's result is a function of the matrix alone; this module names that function and shows that the program's
  result buffer ends holding it, applied to whatever matrix the call leaves.
-/
import proofs.«121614_j13091060318871_2_alg».proof.Proof.Gen.KernelIdeal.Frame
import Idealize.ShloMosaic.Lib.Pipeline.Value
import Idealize.ShloMosaic.PureOps.Ideal

noncomputable section

namespace Cert.KSide

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The two lines after the call as one function of the call's result matrix: a reshape to [2, 512, 64, 64], then a
    broadcast that adds a leading axis of extent one. -/
def tail (X : S1024x4096.Idx → EReal) : S1x2x512x64x64.Idx → EReal :=
  broadcastInDim S1x2x512x64x64 ![1, 2, 3, 4] bcast_S2x512x64x64_S1x2x512x64x64_1_2_3_4
    (shapeCast S2x512x64x64 X shapeCasts_S1024x4096_S2x512x64x64)

/-- If the call leaves the matrix X, the program's result buffer ends holding tail X: the lines after the call read
    the call's result array, and no other buffer. -/
theorem tail_eq (c : Dev nD) (X : S1024x4096.Idx → EReal) (hX : (dats m 0 c).arrAt 5 cfg0.N = X) :
    Pipeline.afterTail₀ cfgs (dats m) 0 (V0 m) [hostOps1] c main_v24 = tail X := by
  show StableHlo.after hostOps1 _ (Proc.devRef .tc main_v24) = _
  after_results
  have hw : Pipeline.withArrays (cfgs 0).spec c (V0 m c) (fun w => (dats m 0 c).arrAt w (cfgs 0).N) (Proc.tc.devRef main_v22) = X :=
    (Pipeline.withArrays_arr spec0 launch0.win.arr_inj c _ _ 5).trans hX
  rw [hw]
  rfl

end Cert.KSide

end
-- ==== Proof.KTail.lean ====
/-
  The kernel's run, read at the program's result.

  The program's result of shape [1, 2, 512, 64, 64] is the call's 1024 x 4096 result matrix with every entry kept at
  its row-major position k: value channel k / 4096, query position k % 4096.  With the matrix equal to the softmax
  read-out at every (value channel, query position), the result at an index of position k is the read-out of value
  channel k / 4096 at query position k % 4096, which is the specification's result array.  The argument arrays are
  written by no line of the program and end as they started.
-/
import proofs.«121614_j13091060318871_2_alg».proof.Proof.KTailArr
import proofs.«121614_j13091060318871_2_alg».proof.Proof.KTailHost

noncomputable section

namespace Cert.KSide

open Cert.KernelIdeal Cert.KernelIdeal.Gen Idealize.ShloMosaic Idealize.ShloMosaic.TcCoe Idealize.SL.Sem
open Idealize.ShloMosaic.Pipeline (Dat)

/-- The lines after the call, applied to the read-out matrix, give the specification's result array: an index of the
    result with row-major position k reads the matrix at row k / 4096 and column k % 4096 (the reshape keeps positions,
    the added leading axis has extent one and does not move them). -/
theorem tail_readout (a0 a1 : Cert.Spec.SQ.Idx → EReal) (a2 : Cert.Spec.SK.Idx → EReal) (a3 : Cert.Spec.SS.Idx → EReal)
    (a4 : Cert.Spec.SV.Idx → EReal) : tail (G a0 a1 a2 a3 a4) = Cert.Spec.out a0 a1 a2 a3 a4 := by
  funext j
  obtain ⟨j0, j1, j2, j3, j4, rfl⟩ : ∃ (j0 : Fin 1) (j1 : Fin 2) (j2 : Fin 512) (j3 : Fin 64) (j4 : Fin 64),
      j = ValueIdx.ix5 j0 j1 j2 j3 j4 := ⟨j 0, j 1, j 2, j 3, j 4, ValueIdx.eq_ix5 j⟩
  have h0 : j0.val = 0 := by omega
  have h1 := j1.isLt
  have h2 := j2.isLt
  have h3 := j3.isLt
  have h4 := j4.isLt
  show broadcastInDim S1x2x512x64x64 ![1, 2, 3, 4] bcast_S2x512x64x64_S1x2x512x64x64_1_2_3_4
    (shapeCast S2x512x64x64 (G a0 a1 a2 a3 a4) shapeCasts_S1024x4096_S2x512x64x64) (ValueIdx.ix5 j0 j1 j2 j3 j4) = _
  -- the broadcast drops the leading coordinate
  rw [broadcastInDim_apply _ _ _ _ (ValueIdx.ix4 j1 j2 j3 j4) (by
    intro a
    match a with
    | ⟨0, _⟩ => rfl
    | ⟨1, _⟩ => rfl
    | ⟨2, _⟩ => rfl
    | ⟨3, _⟩ => rfl)]
  -- the reshape reads the matrix at the entry with the same row-major position
  rw [shapeCast_apply _ _ _
    (ValueIdx.ix2 (⟨(((j1.val * 512 + j2.val) * 64 + j3.val) * 64 + j4.val) / 4096, by omega⟩ : Fin 1024)
      (⟨(((j1.val * 512 + j2.val) * 64 + j3.val) * 64 + j4.val) % 4096, by omega⟩ : Fin 4096)) (by
    rw [Shape.rowMajor_val_two, Shape.rowMajor_val_four]
    show ((((j1.val * 512 + j2.val) * 64 + j3.val) * 64 + j4.val) / 4096) * 4096 + ((((j1.val * 512 + j2.val) * 64 + j3.val) * 64 + j4.val) % 4096) = ((j1.val * 512 + j2.val) * 64 + j3.val) * 64 + j4.val
    omega)]
  have hp : (Cert.Spec.SO.rowMajor (ValueIdx.ix5 j0 j1 j2 j3 j4)).val = ((j1.val * 512 + j2.val) * 64 + j3.val) * 64 + j4.val := by
    rw [Shape.rowMajor_val_five]
    show ((((j0.val * 2 + j1.val) * 512 + j2.val) * 64 + j3.val) * 64 + j4.val) = _
    rw [h0]; omega
  show ((Cert.Spec.readout a0 a1 a2 a3 a4 ((((j1.val * 512 + j2.val) * 64 + j3.val) * 64 + j4.val) / 4096)
      ((((j1.val * 512 + j2.val) * 64 + j3.val) * 64 + j4.val) % 4096) : ℝ) : EReal)
    = ((Cert.Spec.readout a0 a1 a2 a3 a4 ((Cert.Spec.SO.rowMajor (ValueIdx.ix5 j0 j1 j2 j3 j4)).val / 4096)
      ((Cert.Spec.SO.rowMajor (ValueIdx.ix5 j0 j1 j2 j3 j4)).val % 4096) : ℝ) : EReal)
  rw [hp]

/-- THE KERNEL'S RUN.  If at every point t that writes the result window back (t % 8 = 7) the window's staging buffer
    holds, at (v, r), the softmax read-out of value channel v at query position (t / 8) * 1024 + r, then every run of
    the program ends with the result array equal to the specification's and with the five argument arrays unchanged. -/
theorem kernel_run (m : (ℓ : Loc nD τ sig) → Buf (Elt Ideal) ℓ) (ρ : Dev nD → PrngReg)
    (hfl : ∀ (c : Dev nD) (t : Fin cfg0.N), t.val % 8 = 7 → ∀ (v r : Fin 1024),
      (Gen.outsAt0 m c t.val t.isLt).1 (ValueIdx.ix2 v r)
        = ((Cert.Spec.readout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) v.val (t.val / 8 * 1024 + r.val) : ℝ) : EReal)) :
    θ_run (defs (F := Ideal)) (onTc (τ := τ) (main (F := Ideal))) ⟨m, fun _ => 0, ρ⟩ (fun r => ∀ c : Dev nD,
      r.2.mem ((c.tc : Thread nD τ).loc main_v24) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v24 (Pipeline.mem_restRefs_of main_v24 (by decide) (by decide))).trans
        ((tail_eq m c _ (matrix_eq m c (hfl c))).trans (tail_readout _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KSide

end
-- ==== Proof.RefArgs.lean ====
/-
  The reference program's five reshaped arguments, read at an index.

  Each reshape keeps every entry's row-major position, and the leading axis of every reshaped array has extent one, so
  the entry at index j of a reshaped matrix is the argument's entry at position (j 1) * width + (j 2) (for the
  shrinkage vector: at position (j 1)).  Under the precondition that entry is a real number: the specification's accessor.
-/
import proofs.«121614_j13091060318871_2_alg».proof.Proof.Gen.ReferenceIdeal.Read
import proofs.«121614_j13091060318871_2_alg».proof.Proof.Spec

noncomputable section

open scoped BigOperators

namespace Cert.RefSide

open Idealize.ShloMosaic Cert.ReferenceIdeal Cert.ReferenceIdeal.Gen Cert.ReferenceIdeal.Read Cert.Spec

/-- Memory keys as a 64 x 8192 matrix: the entry at channel (j 1), slot (j 2). -/
theorem mk_at (a2 : FVec Ideal S1x64x2x64x64 .f32) (h2 : Finite a2) (j : S1x64x8192.Idx) :
    val_main_v0 (F := Ideal) a2 j = ((mk a2 (j 1).val (j 2).val : ℝ) : EReal) := by
  unfold val_main_v0
  rw [shapeCast_flat, Shape.rowMajor_val_three]
  show flat a2 (((j 0).val * 64 + (j 1).val) * 8192 + (j 2).val) = _
  have h0 : (j 0).val < 1 := (j 0).isLt
  have e : ((j 0).val * 64 + (j 1).val) * 8192 + (j 2).val = (j 1).val * 8192 + (j 2).val := by omega
  rw [e]
  exact flat_eq_coe h2 _

/-- The shrinkage as a vector over the 8192 slots: the entry at slot (j 1). -/
theorem ms_at (a3 : FVec Ideal S1x1x2x64x64 .f32) (h3 : Finite a3) (j : S1x8192.Idx) :
    val_main_v1 (F := Ideal) a3 j = ((ms a3 (j 1).val : ℝ) : EReal) := by
  unfold val_main_v1
  rw [shapeCast_flat, Shape.rowMajor_val_two]
  show flat a3 ((j 0).val * 8192 + (j 1).val) = _
  have h0 : (j 0).val < 1 := (j 0).isLt
  have e : (j 0).val * 8192 + (j 1).val = (j 1).val := by omega
  rw [e]
  exact flat_eq_coe h3 _

/-- Query keys as a 64 x 4096 matrix: the entry at channel (j 1), query position (j 2). -/
theorem qk_at (a0 : FVec Ideal S1x64x64x64 .f32) (h0 : Finite a0) (j : S1x64x4096.Idx) :
    val_main_v2 (F := Ideal) a0 j = ((qk a0 (j 1).val (j 2).val : ℝ) : EReal) := by
  unfold val_main_v2
  rw [shapeCast_flat, Shape.rowMajor_val_three]
  show flat a0 (((j 0).val * 64 + (j 1).val) * 4096 + (j 2).val) = _
  have hj : (j 0).val < 1 := (j 0).isLt
  have e : ((j 0).val * 64 + (j 1).val) * 4096 + (j 2).val = (j 1).val * 4096 + (j 2).val := by omega
  rw [e]
  exact flat_eq_coe h0 _

/-- Query selections as a 64 x 4096 matrix: the entry at channel (j 1), query position (j 2). -/
theorem qe_at (a1 : FVec Ideal S1x64x64x64 .f32) (h1 : Finite a1) (j : S1x64x4096.Idx) :
    val_main_v3 (F := Ideal) a1 j = ((qe a1 (j 1).val (j 2).val : ℝ) : EReal) := by
  unfold val_main_v3
  rw [shapeCast_flat, Shape.rowMajor_val_three]
  show flat a1 (((j 0).val * 64 + (j 1).val) * 4096 + (j 2).val) = _
  have hj : (j 0).val < 1 := (j 0).isLt
  have e : ((j 0).val * 64 + (j 1).val) * 4096 + (j 2).val = (j 1).val * 4096 + (j 2).val := by omega
  rw [e]
  exact flat_eq_coe h1 _

/-- Memory values as a 1024 x 8192 matrix: the entry at value channel (j 1), slot (j 2). -/
theorem mv_at (a4 : FVec Ideal S1x2x512x2x64x64 .f32) (h4 : Finite a4) (j : S1x1024x8192.Idx) :
    val_main_v4 (F := Ideal) a4 j = ((mv a4 (j 1).val (j 2).val : ℝ) : EReal) := by
  unfold val_main_v4
  rw [shapeCast_flat, Shape.rowMajor_val_three]
  show flat a4 (((j 0).val * 1024 + (j 1).val) * 8192 + (j 2).val) = _
  have hj : (j 0).val < 1 := (j 0).isLt
  have e : ((j 0).val * 1024 + (j 1).val) * 8192 + (j 2).val = (j 1).val * 8192 + (j 2).val := by omega
  rw [e]
  exact flat_eq_coe h4 _

end Cert.RefSide

end
-- ==== Proof.RefReal.lean ====
/-
  Extended-real facts the reference's reading needs.

  A finite sum of reals embeds into the extended reals term by term, and the maximum, started from -∞, of finitely many
  (at least one) real numbers is again a real number.
-/
import Idealize.ShloMosaic.PureOps.Ideal
import Idealize.ShloMosaic.PureOps.Ideal.Laws
import Mathlib.Analysis.SpecialFunctions.Exp

noncomputable section

open scoped BigOperators

namespace Cert.RefSide

open Idealize.ShloMosaic

/-- The embedding of the reals commutes with finite sums. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The maximum from -∞ over a nonempty finite family of reals is a real: it is below +∞ because every member is,
    and above -∞ because it dominates some member. -/
theorem fold_max_real {ι : Type*} [Fintype ι] [Nonempty ι] (f : ι → EReal) (hf : ∀ k, ∃ r : ℝ, f k = (r : EReal)) :
    ∃ M : ℝ, (Finset.univ : Finset ι).fold max (⊥ : EReal) f = (M : EReal) := by
  have hlt : (Finset.univ : Finset ι).fold max (⊥ : EReal) f < ⊤ := by
    rw [Finset.fold_max_lt]
    refine ⟨bot_lt_top, fun x _ => ?_⟩
    obtain ⟨r, hr⟩ := hf x
    rw [hr]; exact EReal.coe_lt_top r
  have hgt : ⊥ < (Finset.univ : Finset ι).fold max (⊥ : EReal) f := by
    obtain ⟨k⟩ := (inferInstance : Nonempty ι)
    obtain ⟨r, hr⟩ := hf k
    have hle : f k ≤ (Finset.univ : Finset ι).fold max (⊥ : EReal) f := by
      rw [Finset.le_fold_max]
      exact Or.inr ⟨k, Finset.mem_univ k, le_rfl⟩
    refine lt_of_lt_of_le ?_ hle
    rw [hr]; exact EReal.bot_lt_coe r
  exact ⟨_, (EReal.coe_toReal hlt.ne hgt.ne').symm⟩

end Cert.RefSide

end
-- ==== Proof.RefScore.lean ====
/-
  The reference's score array, read at an index.

  At the index of slot n = (i 1) and query position p = (i 2) the program computes, from the reshaped arguments,
      ((2 · Σ_c mk c n · (qk c p · qe c p)) − Σ_c (mk c n)² · qe c p − Σ_c qe c p · qk c p · qk c p) · ms n · 0.125.
  Every factor is a real number under the precondition, so each contraction is the embedding of a real sum and the
  whole entry is the embedding of the specification's score of slot n for query position p.
-/
import proofs.«121614_j13091060318871_2_alg».proof.Proof.RefArgs
import proofs.«121614_j13091060318871_2_alg».proof.Proof.RefReal
import proofs.«121614_j13091060318871_2_alg».proof.Proof.Consts

noncomputable section

open scoped BigOperators

namespace Cert.RefSide

open Idealize.ShloMosaic Cert.ReferenceIdeal Cert.ReferenceIdeal.Gen Cert.ReferenceIdeal.Read Cert.Spec

/-- The contraction of the squared memory keys with the query selections: Σ_c (mk c n)² · qe c p. -/
theorem sq_term_at (a1 : FVec Ideal S1x64x64x64 .f32) (a2 : FVec Ideal S1x64x2x64x64 .f32)
    (h1 : Finite a1) (h2 : Finite a2) (i : S1x8192x4096.Idx) :
    val_main_v6 (F := Ideal) a1 a2 i
      = ((∑ c : Fin 64, (mk a2 c (i 1).val * mk a2 c (i 1).val) * qe a1 c (i 2).val : ℝ) : EReal) := by
  rw [val_main_v6_apply, coe_sum]
  refine Finset.sum_congr rfl fun k _ => ?_
  rw [val_main_v5_apply, mk_at a2 h2, qe_at a1 h1, EReal.coe_mul, EReal.coe_mul]
  rfl

/-- The contraction of the memory keys with the product of query keys and selections: Σ_c mk c n · (qk c p · qe c p). -/
theorem cross_term_at (a0 a1 : FVec Ideal S1x64x64x64 .f32) (a2 : FVec Ideal S1x64x2x64x64 .f32)
    (h0 : Finite a0) (h1 : Finite a1) (h2 : Finite a2) (i : S1x8192x4096.Idx) :
    val_main_v8 (F := Ideal) a0 a1 a2 i
      = ((∑ c : Fin 64, mk a2 c (i 1).val * (qk a0 c (i 2).val * qe a1 c (i 2).val) : ℝ) : EReal) := by
  rw [val_main_v8_apply, coe_sum]
  refine Finset.sum_congr rfl fun k _ => ?_
  rw [val_main_v7_apply, mk_at a2 h2, qk_at a0 h0, qe_at a1 h1, EReal.coe_mul, EReal.coe_mul]
  rfl

/-- The slot-independent term: 0 + Σ_c (qe c p · qk c p) · qk c p at query position p = (j 1). -/
theorem bsq_at (a0 a1 : FVec Ideal S1x64x64x64 .f32) (h0 : Finite a0) (h1 : Finite a1) (j : S1x4096.Idx) :
    val_main_v13 (F := Ideal) a0 a1 j = ((bsq a0 a1 (j 1).val : ℝ) : EReal) := by
  have hz : val_main_cst_0 (F := Ideal) (Shape.Idx.first h_S_) = 0 := Ideal.ofBits_zero_f32
  rw [val_main_v13_apply, hz, zero_add]
  unfold bsq
  rw [coe_sum]
  refine Finset.sum_congr rfl fun k _ => ?_
  rw [val_main_v12_apply, val_main_v11_apply, qk_at a0 h0, qe_at a1 h1, EReal.coe_mul, EReal.coe_mul]
  rfl

/-- The score array at slot n = (i 1), query position p = (i 2) is the specification's score. -/
theorem score_at (a0 a1 : FVec Ideal S1x64x64x64 .f32) (a2 : FVec Ideal S1x64x2x64x64 .f32)
    (a3 : FVec Ideal S1x1x2x64x64 .f32) (h0 : Finite a0) (h1 : Finite a1) (h2 : Finite a2) (h3 : Finite a3)
    (i : S1x8192x4096.Idx) :
    val_main_v22 (F := Ideal) a0 a1 a2 a3 i = ((score a0 a1 a2 a3 (i 2).val (i 1).val : ℝ) : EReal) := by
  rw [val_main_v22_apply, val_main_v20_apply, val_main_v17_apply, val_main_v15_apply, val_main_v10_apply,
    val_main_v9_apply, val_main_cst_apply, val_main_v21_apply, val_main_cst_1_apply,
    val_main_v16_apply, val_main_v14_apply, val_main_v19_apply, val_main_v18_apply,
    cross_term_at a0 a1 a2 h0 h1 h2, sq_term_at a1 a2 h1 h2, bsq_at a0 a1 h0 h1, ms_at a3 h3]
  simp only [Ideal.ofBits_def, Ideal.mulf_def, Ideal.subf_def, Cert.Consts.ofBits_two, Cert.Consts.ofBits_eighth]
  unfold score
  simp only [EReal.coe_mul, EReal.coe_sub]

end Cert.RefSide

end
-- ==== Proof.RefSoftmax.lean ====
/-
  The reference's softmax weights, read at an index.

  For a query position the program takes the maximum M of the 8192 scores (started from -∞), then the exponentials
  exp(s n − M), their sum, and the quotients.  Only one property of M is used: it is a real number, being the
  maximum of finitely many (at least one) reals.  Hence every exponential, the sum and every quotient is the embedding
  of the corresponding real expression; the sum of exponentials is positive, so the division is a real division.
-/
import proofs.«121614_j13091060318871_2_alg».proof.Proof.RefScore
import proofs.«121614_j13091060318871_2_alg».proof.Proof.Softmax

noncomputable section

open scoped BigOperators

namespace Cert.RefSide

open Idealize.ShloMosaic Cert.ReferenceIdeal Cert.ReferenceIdeal.Gen Cert.ReferenceIdeal.Read Cert.Spec

/-- The index of query position p in the per-position arrays (leading axis of extent one). -/
def pix (p : Fin 4096) : S1x4096.Idx := fun a => match a with
  | ⟨0, _⟩ => ⟨0, Nat.one_pos⟩
  | ⟨1, _⟩ => p

variable (a0 a1 : FVec Ideal S1x64x64x64 .f32) (a2 : FVec Ideal S1x64x2x64x64 .f32) (a3 : FVec Ideal S1x1x2x64x64 .f32)

/-- The row maximum the program subtracts is a real number. -/
theorem max_real (h0 : Finite a0) (h1 : Finite a1) (h2 : Finite a2) (h3 : Finite a3) (j : S1x4096.Idx) :
    ∃ M : ℝ, val_main_v25 (F := Ideal) a0 a1 a2 a3 j = (M : EReal) := by
  have hred : S1x8192x4096.Reduces [1] S1x4096 := by decide
  have hv : ∀ k, ∃ r : ℝ, (val_main_v22 (F := Ideal) a0 a1 a2 a3 ∘ hred.lift j) k = (r : EReal) :=
    fun k => ⟨_, score_at a0 a1 a2 a3 h0 h1 h2 h3 _⟩
  haveI : Nonempty (Fin (S1x8192x4096.size 1)) := ⟨⟨0, by decide⟩⟩
  obtain ⟨M, hM⟩ := fold_max_real _ hv
  refine ⟨M, ?_⟩
  rw [val_main_v25_apply, val_main_v24_apply, val_main_cst_3_apply]
  unfold val_main_v23
  rw [Host.reduce_eq_fold_single FloatOps.maximumf _ _ reducesTo_S1x8192x4096_S1x4096_d1 hred h_S_ j]
  show max (Ideal.ofBits .f32 0xFF800000#32) (Finset.fold max (Ideal.ofBits .f32 0xFF800000#32) _ _) = _
  rw [Cert.Consts.ofBits_neg_inf, hM]
  exact max_bot_left _

variable {a0 a1 a2 a3}

/-- An exponential of the shifted score, at slot (i 1) and query position (i 2), in the row whose maximum is M. -/
theorem exp_at (h0 : Finite a0) (h1 : Finite a1) (h2 : Finite a2) (h3 : Finite a3) {j : S1x4096.Idx} {M : ℝ}
    (hM : val_main_v25 (F := Ideal) a0 a1 a2 a3 j = (M : EReal)) (i : S1x8192x4096.Idx)
    (hi : idx_main_v26 (idx_main_v27 i) = j) :
    val_main_v29 (F := Ideal) a0 a1 a2 a3 i
      = ((Real.exp (score a0 a1 a2 a3 (i 2).val (i 1).val - M) : ℝ) : EReal) := by
  rw [val_main_v29_apply, val_main_v28_apply, val_main_v27_apply, val_main_v26_apply, hi, hM,
    score_at a0 a1 a2 a3 h0 h1 h2 h3]
  show Ideal.exp ((score a0 a1 a2 a3 (i 2).val (i 1).val : EReal) - (M : EReal)) = _
  rw [← EReal.coe_sub]
  rfl

/-- The sum of a row's exponentials, at query position (j 1). -/
theorem expsum_at (h0 : Finite a0) (h1 : Finite a1) (h2 : Finite a2) (h3 : Finite a3) {j : S1x4096.Idx} {M : ℝ}
    (hM : val_main_v25 (F := Ideal) a0 a1 a2 a3 j = (M : EReal)) :
    val_main_v30 (F := Ideal) a0 a1 a2 a3 j
      = ((∑ n : Fin 8192, Real.exp (score a0 a1 a2 a3 (j 1).val n - M) : ℝ) : EReal) := by
  have hz : val_main_cst_4 (F := Ideal) (Shape.Idx.first h_S_) = 0 := Ideal.ofBits_zero_f32
  rw [val_main_v30_apply, hz, zero_add, coe_sum]
  refine Finset.sum_congr rfl fun k _ => ?_
  have hi : idx_main_v26 (idx_main_v27 (idx_main_v30 j k)) = j := funext fun a => Fin.ext (by
    match a with
    | ⟨0, _⟩ => have hj : (j 0).val < 1 := (j 0).isLt; show 0 = (j 0).val; omega
    | ⟨1, _⟩ => rfl)
  rw [exp_at h0 h1 h2 h3 hM _ hi]

/-- A softmax weight: the exponential over the row's sum, a quotient of reals since the sum is positive. -/
theorem weight_at (h0 : Finite a0) (h1 : Finite a1) (h2 : Finite a2) (h3 : Finite a3) {j : S1x4096.Idx} {M : ℝ}
    (hM : val_main_v25 (F := Ideal) a0 a1 a2 a3 j = (M : EReal)) (i : S1x8192x4096.Idx)
    (hi : idx_main_v26 (idx_main_v27 i) = j) :
    val_main_v33 (F := Ideal) a0 a1 a2 a3 i
      = ((Real.exp (score a0 a1 a2 a3 (i 2).val (i 1).val - M)
          / ∑ n : Fin 8192, Real.exp (score a0 a1 a2 a3 (j 1).val n - M) : ℝ) : EReal) := by
  have hi' : idx_main_v31 (idx_main_v32 i) = j := hi
  rw [val_main_v33_apply, val_main_v32_apply, val_main_v31_apply, hi', exp_at h0 h1 h2 h3 hM i hi,
    expsum_at h0 h1 h2 h3 hM]
  show Ideal.div _ _ = _
  rw [Ideal.div_coe (Cert.Softmax.sum_exp_ne_zero fun n : Fin 8192 => score a0 a1 a2 a3 (j 1).val n - M),
    ← EReal.coe_mul, mul_one_div]

end Cert.RefSide

end
-- ==== Proof.RefResult.lean ====
/-
  The reference's result is the specification's read-out.

  The last contraction takes, for value channel v = (i 1) and query position p = (i 2), the sum over the 8192 slots of
  the memory value times the softmax weight.  With M the row's maximum (a real), this is
      Σ_n mv v n · (exp(s n − M) / Σ_k exp(s k − M)) = (Σ_n mv v n · exp(s n − M)) / Σ_k exp(s k − M)
                                                     = (Σ_n mv v n · exp(s n)) / Σ_k exp(s k),
  the first step by moving the common divisor out of the sum, the second because a shift of every score by one real
  cancels between numerator and denominator.  The final reshape keeps row-major positions: the entry at an index of
  position k is the entry at value channel k / 4096 and query position k % 4096.
-/
import proofs.«121614_j13091060318871_2_alg».proof.Proof.RefSoftmax

noncomputable section

open scoped BigOperators

namespace Cert.RefSide

open Idealize.ShloMosaic Cert.ReferenceIdeal Cert.ReferenceIdeal.Gen Cert.ReferenceIdeal.Read Cert.Spec

variable (a0 a1 : FVec Ideal S1x64x64x64 .f32) (a2 : FVec Ideal S1x64x2x64x64 .f32) (a3 : FVec Ideal S1x1x2x64x64 .f32)
  (a4 : FVec Ideal S1x2x512x2x64x64 .f32)

/-- The contraction of memory values with softmax weights at value channel (i 1), query position (i 2). -/
theorem readout_at (h0 : Finite a0) (h1 : Finite a1) (h2 : Finite a2) (h3 : Finite a3) (h4 : Finite a4)
    (i : S1x1024x4096.Idx) :
    val_main_v34 (F := Ideal) a0 a1 a2 a3 a4 i
      = ((readout a0 a1 a2 a3 a4 (i 1).val (i 2).val : ℝ) : EReal) := by
  obtain ⟨M, hM⟩ := max_real a0 a1 a2 a3 h0 h1 h2 h3 (pix ⟨(i 2).val, (i 2).isLt⟩)
  have hrow : ∀ k : Fin 8192, idx_main_v26 (idx_main_v27 (ridx_main_v34 i k)) = pix ⟨(i 2).val, (i 2).isLt⟩ :=
    fun k => funext fun a => by match a with | ⟨0, _⟩ => rfl | ⟨1, _⟩ => rfl
  have hterm : ∀ k : Fin 8192,
      val_main_v4 (F := Ideal) a4 (lidx_main_v34 i k) * val_main_v33 (F := Ideal) a0 a1 a2 a3 (ridx_main_v34 i k)
        = ((mv a4 (i 1).val k * (Real.exp (score a0 a1 a2 a3 (i 2).val k - M)
            / ∑ n : Fin 8192, Real.exp (score a0 a1 a2 a3 (i 2).val n - M)) : ℝ) : EReal) := by
    intro k
    rw [mv_at a4 h4, weight_at h0 h1 h2 h3 hM _ (hrow k), EReal.coe_mul]
    rfl
  rw [val_main_v34_apply]
  refine (Finset.sum_congr rfl fun k _ => hterm k).trans ?_
  rw [← coe_sum]
  unfold readout
  rw [Cert.Softmax.sum_mul_div (fun n : Fin 8192 => mv a4 (i 1).val n)
      (fun n : Fin 8192 => Real.exp (score a0 a1 a2 a3 (i 2).val n - M)),
    Cert.Softmax.ratio_shift (fun n : Fin 8192 => mv a4 (i 1).val n)
      (fun n : Fin 8192 => score a0 a1 a2 a3 (i 2).val n) M]

/-- The reference's result array, as a function of its five arguments, is the specification's result. -/
theorem result_eq (h0 : Finite a0) (h1 : Finite a1) (h2 : Finite a2) (h3 : Finite a3) (h4 : Finite a4) :
    val_main_v35 (F := Ideal) a0 a1 a2 a3 a4 = Cert.Spec.out a0 a1 a2 a3 a4 := by
  funext i
  have hR : (SO.rowMajor i).val
      = ((((i 0).val * 2 + (i 1).val) * 512 + (i 2).val) * 64 + (i 3).val) * 64 + (i 4).val :=
    Shape.rowMajor_val_five i
  have b0 : (i 0).val < 1 := (i 0).isLt
  have b1 : (i 1).val < 2 := (i 1).isLt
  have b2 : (i 2).val < 512 := (i 2).isLt
  have b3 : (i 3).val < 64 := (i 3).isLt
  have b4 : (i 4).val < 64 := (i 4).isLt
  have e1 : ((idx_main_v35 i) 1).val = (SO.rowMajor i).val / 4096 := by
    rw [hR]
    show (((((i 0).val * 2 + (i 1).val) * 512 + (i 2).val) * 64 + (i 3).val) * 64 + (i 4).val) / 4096 % 1024 = _
    omega
  have e2 : ((idx_main_v35 i) 2).val = (SO.rowMajor i).val % 4096 := by
    rw [hR]
  rw [val_main_v35_apply, readout_at a0 a1 a2 a3 a4 h0 h1 h2 h3 h4, e1, e2]
  rfl

end Cert.RefSide

end
-- ==== Proof.lean ====
/-
  An attention-style read-out: for every query position p and value channel v,
      out (v, p) = (Σ_n mv v n · exp (s p n)) / Σ_n exp (s p n),
  where s p n = ((2 Σ_c mk c n (qk c p qe c p)) − Σ_c (mk c n)² qe c p − Σ_c qe c p (qk c p)²) · ms n / 8 is the
  shrinkage-scaled negative squared distance between query p and memory slot n.

  The reference computes exactly this, normalising the exponentials of s − max s before the weighted sum.  The kernel
  fuses the two products of the score into one product over 128 channels (2·qk·qe and −qe against mk and mk²) and
  runs the softmax block by block over the slots, carrying a running maximum, a running normaliser and running
  numerators that it rescales by exp(old maximum − new maximum) at each block, and divides once at the end.  Over the
  reals the rescalings telescope (exp(a − b)·exp(b − c) = exp(a − c)), the reference point of the exponentials cancels
  between numerator and denominator, and dividing each weight first or the sum last is the same number; the
  precondition (every input entry is a real number) is what lets these identities be used on the extended reals.
  Both programs' results are therefore the one array `Cert.Spec.out` of the argument arrays.

  The idealised kernel is the printed kernel read on the extended reals with no operation rewritten, so the claim that
  it is the kernel's idealisation has no conjunct to prove; each program also runs to its end and leaves its arguments
  unchanged.
-/
import proofs.«121614_j13091060318871_2_alg».proof.Defs
import proofs.«121614_j13091060318871_2_alg».proof.Proof.Gen.Kernel
import proofs.«121614_j13091060318871_2_alg».proof.Proof.Gen.Kernel.Skeleton
import proofs.«121614_j13091060318871_2_alg».proof.Proof.Gen.Kernel.Launch
import proofs.«121614_j13091060318871_2_alg».proof.Proof.Gen.Kernel.Points
import proofs.«121614_j13091060318871_2_alg».proof.Proof.Gen.Kernel.Frame
import proofs.«121614_j13091060318871_2_alg».proof.Proof.Gen.KernelIdeal
import proofs.«121614_j13091060318871_2_alg».proof.Proof.Gen.KernelIdeal.Skeleton
import proofs.«121614_j13091060318871_2_alg».proof.Proof.Gen.KernelIdeal.Launch
import proofs.«121614_j13091060318871_2_alg».proof.Proof.Gen.KernelIdeal.Points
import proofs.«121614_j13091060318871_2_alg».proof.Proof.Gen.KernelIdeal.Frame
import proofs.«121614_j13091060318871_2_alg».proof.Proof.Gen.ReferenceIdeal
import proofs.«121614_j13091060318871_2_alg».proof.Proof.Gen.ReferenceIdeal.Run
import proofs.«121614_j13091060318871_2_alg».proof.Proof.Gen.ReferenceIdeal.Read
import proofs.«121614_j13091060318871_2_alg».proof.Proof.Gen.Pre_finite_inputs
import proofs.«121614_j13091060318871_2_alg».proof.Proof.KInv
import proofs.«121614_j13091060318871_2_alg».proof.Proof.KArgsBlocks
import proofs.«121614_j13091060318871_2_alg».proof.Proof.KArgsFin
import proofs.«121614_j13091060318871_2_alg».proof.Proof.KTail
import proofs.«121614_j13091060318871_2_alg».proof.Proof.RefResult
import Idealize.ShloMosaic.Adequacy
import Idealize.ShloMosaic.Init

noncomputable section

namespace Cert.Proof

open Idealize.ShloMosaic Idealize.SL.Sem

/-- Both idealised programs end with the specification's array of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KSide.kernel_run m g (fun c t h7 v r => ?_), ?_⟩
  · -- the kernel: every output block holds the read-out of its query positions
    obtain ⟨h0, h1, h2, h3, h4⟩ := Cert.KSide.fin_args m hpre c
    exact Cert.KSide.out_readout m c _ _ _ _ _
      ⟨Cert.KSide.B0 m c h0 h1 h2 h3 h4, Cert.KSide.B1 m c h0 h1 h2 h3 h4, Cert.KSide.B2 m c h0 h1 h2 h3 h4,
        Cert.KSide.B3 m c h0 h1 h2 h3 h4, Cert.KSide.B4 m c h0 h1 h2 h3 h4⟩ t h7 v r
  · -- the reference: its last stage, read at the same arguments
    refine (θ_run Cert.ReferenceIdeal.defs _ _).mono (fun _ h c => ⟨(h c).1.trans ?_, (h c).2⟩)
      (Cert.ReferenceIdeal.Value.run (F := Ideal) m' g')
    obtain ⟨h0, h1, h2, h3, h4⟩ := Cert.KSide.fin_args m hpre c
    rw [Cert.ReferenceIdeal.Read.val_main_v35_eq, (hagree c).1, (hagree c).2.1, (hagree c).2.2.1, (hagree c).2.2.2.1,
      (hagree c).2.2.2.2]
    exact Cert.RefSide.result_eq _ _ _ _ _ h0 h1 h2 h3 h4

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial, algebraic⟩

end Cert.Proof

end
